-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x43 : Shape := ⟨2, ![1048576, 43]⟩
abbrev S43x43 : Shape := ⟨2, ![43, 43]⟩
abbrev S43 : Shape := ⟨1, ![43]⟩
abbrev S43x21 : Shape := ⟨2, ![43, 21]⟩
abbrev S21 : Shape := ⟨1, ![21]⟩
abbrev S21x43 : Shape := ⟨2, ![21, 43]⟩
abbrev S_ : Shape := ⟨0, ![]⟩

class Facts : Prop where
  bcast_S_S1048576x43 : S_.BroadcastsInDim S1048576x43 (![] : Fin 0 → Fin S1048576x43.rank)
  reducesTo_S1048576x43_S_d0_1 : S1048576x43.ReducesTo [0, 1] S_
  h_S_ : 0 < S_.numel
  bcast_S_S43x43 : S_.BroadcastsInDim S43x43 (![] : Fin 0 → Fin S43x43.rank)
  reducesTo_S43x43_S_d0_1 : S43x43.ReducesTo [0, 1] S_
  bcast_S_S43 : S_.BroadcastsInDim S43 (![] : Fin 0 → Fin S43.rank)
  reducesTo_S43_S_d0 : S43.ReducesTo [0] S_
  bcast_S_S43x21 : S_.BroadcastsInDim S43x21 (![] : Fin 0 → Fin S43x21.rank)
  reducesTo_S43x21_S_d0_1 : S43x21.ReducesTo [0, 1] S_
  bcast_S_S21 : S_.BroadcastsInDim S21 (![] : Fin 0 → Fin S21.rank)
  reducesTo_S21_S_d0 : S21.ReducesTo [0] S_
  bcast_S_S21x43 : S_.BroadcastsInDim S21x43 (![] : Fin 0 → Fin S21x43.rank)
  reducesTo_S21x43_S_d0_1 : S21x43.ReducesTo [0, 1] S_

variable [Facts]

def fn_part6 {F : FTy → Type} [FloatOps F] (main_v98 : IVec S_ 1) (main_v101 : IVec S43 1) (main_c_39 : IVec S_ 1) : IVec S_ 1 :=
  let main_v102 : IVec S_ 1 := (fun x v => Host.reduce IntOp.andi x v reducesTo_S43_S_d0 h_S_) main_v101 main_c_39
  let main_v103 : IVec S_ 1 := andi main_v98 main_v102
  main_v103

def fn_part5 {F : FTy → Type} [FloatOps F] (main_arg18 : FVec F S43 .f32) (main_arg19 : FVec F S43x43 .f32) (main_arg20 : FVec F S43 .f32) (main_v83 : IVec S_ 1) (main_v84 : FVec F S43x43 .f32) (main_cst_32 : FVec F S_ .f32) : IVec S_ 1 :=
  let main_v85 : FVec F S43x43 .f32 := broadcastInDim S43x43 ![] bcast_S_S43x43 main_cst_32
  let main_v86 : IVec S43x43 1 := cmpf .olt main_v84 main_v85
  let main_c_33 : IVec S_ 1 := constantI S_ 1 1#1
  let main_v87 : IVec S_ 1 := (fun x v => Host.reduce IntOp.andi x v reducesTo_S43x43_S_d0_1 h_S_) main_v86 main_c_33
  let main_v88 : IVec S_ 1 := andi main_v83 main_v87
  let main_v89 : FVec F S43 .f32 := Host.absf main_arg18
  let main_cst_34 : FVec F S_ .f32 := constant S_ .f32 0x7F800000#32
  let main_v90 : FVec F S43 .f32 := broadcastInDim S43 ![] bcast_S_S43 main_cst_34
  let main_v91 : IVec S43 1 := cmpf .olt main_v89 main_v90
  let main_c_35 : IVec S_ 1 := constantI S_ 1 1#1
  let main_v92 : IVec S_ 1 := (fun x v => Host.reduce IntOp.andi x v reducesTo_S43_S_d0 h_S_) main_v91 main_c_35
  let main_v93 : IVec S_ 1 := andi main_v88 main_v92
  let main_v94 : FVec F S43x43 .f32 := Host.absf main_arg19
  let main_cst_36 : FVec F S_ .f32 := constant S_ .f32 0x7F800000#32
  let main_v95 : FVec F S43x43 .f32 := broadcastInDim S43x43 ![] bcast_S_S43x43 main_cst_36
  let main_v96 : IVec S43x43 1 := cmpf .olt main_v94 main_v95
  let main_c_37 : IVec S_ 1 := constantI S_ 1 1#1
  let main_v97 : IVec S_ 1 := (fun x v => Host.reduce IntOp.andi x v reducesTo_S43x43_S_d0_1 h_S_) main_v96 main_c_37
  let main_v98 : IVec S_ 1 := andi main_v93 main_v97
  let main_v99 : FVec F S43 .f32 := Host.absf main_arg20
  let main_cst_38 : FVec F S_ .f32 := constant S_ .f32 0x7F800000#32
  let main_v100 : FVec F S43 .f32 := broadcastInDim S43 ![] bcast_S_S43 main_cst_38
  let main_v101 : IVec S43 1 := cmpf .olt main_v99 main_v100
  let main_c_39 : IVec S_ 1 := constantI S_ 1 1#1
  fn_part6 (F := F) main_v98 main_v101 main_c_39

def fn_part4 {F : FTy → Type} [FloatOps F] (main_arg14 : FVec F S43 .f32) (main_arg15 : FVec F S43x43 .f32) (main_arg16 : FVec F S43 .f32) (main_arg17 : FVec F S43x43 .f32) (main_arg18 : FVec F S43 .f32) (main_arg19 : FVec F S43x43 .f32) (main_arg20 : FVec F S43 .f32) (main_v63 : IVec S_ 1) (main_v67 : IVec S_ 1) : IVec S_ 1 :=
  let main_v68 : IVec S_ 1 := andi main_v63 main_v67
  let main_v69 : FVec F S43 .f32 := Host.absf main_arg14
  let main_cst_26 : FVec F S_ .f32 := constant S_ .f32 0x7F800000#32
  let main_v70 : FVec F S43 .f32 := broadcastInDim S43 ![] bcast_S_S43 main_cst_26
  let main_v71 : IVec S43 1 := cmpf .olt main_v69 main_v70
  let main_c_27 : IVec S_ 1 := constantI S_ 1 1#1
  let main_v72 : IVec S_ 1 := (fun x v => Host.reduce IntOp.andi x v reducesTo_S43_S_d0 h_S_) main_v71 main_c_27
  let main_v73 : IVec S_ 1 := andi main_v68 main_v72
  let main_v74 : FVec F S43x43 .f32 := Host.absf main_arg15
  let main_cst_28 : FVec F S_ .f32 := constant S_ .f32 0x7F800000#32
  let main_v75 : FVec F S43x43 .f32 := broadcastInDim S43x43 ![] bcast_S_S43x43 main_cst_28
  let main_v76 : IVec S43x43 1 := cmpf .olt main_v74 main_v75
  let main_c_29 : IVec S_ 1 := constantI S_ 1 1#1
  let main_v77 : IVec S_ 1 := (fun x v => Host.reduce IntOp.andi x v reducesTo_S43x43_S_d0_1 h_S_) main_v76 main_c_29
  let main_v78 : IVec S_ 1 := andi main_v73 main_v77
  let main_v79 : FVec F S43 .f32 := Host.absf main_arg16
  let main_cst_30 : FVec F S_ .f32 := constant S_ .f32 0x7F800000#32
  let main_v80 : FVec F S43 .f32 := broadcastInDim S43 ![] bcast_S_S43 main_cst_30
  let main_v81 : IVec S43 1 := cmpf .olt main_v79 main_v80
  let main_c_31 : IVec S_ 1 := constantI S_ 1 1#1
  let main_v82 : IVec S_ 1 := (fun x v => Host.reduce IntOp.andi x v reducesTo_S43_S_d0 h_S_) main_v81 main_c_31
  let main_v83 : IVec S_ 1 := andi main_v78 main_v82
  let main_v84 : FVec F S43x43 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S21x43 .f32) (main_arg12 : FVec F S43 .f32) (main_arg13 : FVec F S43x43 .f32) (main_arg14 : FVec F S43 .f32) (main_arg15 : FVec F S43x43 .f32) (main_arg16 : FVec F S43 .f32) (main_arg17 : FVec F S43x43 .f32) (main_arg18 : FVec F S43 .f32) (main_arg19 : FVec F S43x43 .f32) (main_arg20 : FVec F S43 .f32) (main_v48 : IVec S_ 1) (main_v49 : FVec F S21 .f32) (main_v50 : FVec F S21 .f32) : IVec S_ 1 :=
  let main_v51 : IVec S21 1 := cmpf .olt main_v49 main_v50
  let main_c_19 : IVec S_ 1 := constantI S_ 1 1#1
  let main_v52 : IVec S_ 1 := (fun x v => Host.reduce IntOp.andi x v reducesTo_S21_S_d0 h_S_) main_v51 main_c_19
  let main_v53 : IVec S_ 1 := andi main_v48 main_v52
  let main_v54 : FVec F S21x43 .f32 := Host.absf main_arg11
  let main_cst_20 : FVec F S_ .f32 := constant S_ .f32 0x7F800000#32
  let main_v55 : FVec F S21x43 .f32 := broadcastInDim S21x43 ![] bcast_S_S21x43 main_cst_20
  let main_v56 : IVec S21x43 1 := cmpf .olt main_v54 main_v55
  let main_c_21 : IVec S_ 1 := constantI S_ 1 1#1
  let main_v57 : IVec S_ 1 := (fun x v => Host.reduce IntOp.andi x v reducesTo_S21x43_S_d0_1 h_S_) main_v56 main_c_21
  let main_v58 : IVec S_ 1 := andi main_v53 main_v57
  let main_v59 : FVec F S43 .f32 := Host.absf main_arg12
  let main_cst_22 : FVec F S_ .f32 := constant S_ .f32 0x7F800000#32
  let main_v60 : FVec F S43 .f32 := broadcastInDim S43 ![] bcast_S_S43 main_cst_22
  let main_v61 : IVec S43 1 := cmpf .olt main_v59 main_v60
  let main_c_23 : IVec S_ 1 := constantI S_ 1 1#1
  let main_v62 : IVec S_ 1 := (fun x v => Host.reduce IntOp.andi x v reducesTo_S43_S_d0 h_S_) main_v61 main_c_23
  let main_v63 : IVec S_ 1 := andi main_v58 main_v62
  let main_v64 : FVec F S43x43 .f32 := Host.absf main_arg13
  let main_cst_24 : FVec F S_ .f32 := constant S_ .f32 0x7F800000#32
  let main_v65 : FVec F S43x43 .f32 := broadcastInDim S43x43 ![] bcast_S_S43x43 main_cst_24
  let main_v66 : IVec S43x43 1 := cmpf .olt main_v64 main_v65
  let main_c_25 : IVec S_ 1 := constantI S_ 1 1#1
  let main_v67 : IVec S_ 1 := (fun x v => Host.reduce IntOp.andi x v reducesTo_S43x43_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S43x43 .f32) (main_arg8 : FVec F S43 .f32) (main_arg9 : FVec F S43x21 .f32) (main_arg10 : FVec F S21 .f32) (main_arg11 : FVec F S21x43 .f32) (main_arg12 : FVec F S43 .f32) (main_arg13 : FVec F S43x43 .f32) (main_arg14 : FVec F S43 .f32) (main_arg15 : FVec F S43x43 .f32) (main_arg16 : FVec F S43 .f32) (main_arg17 : FVec F S43x43 .f32) (main_arg18 : FVec F S43 .f32) (main_arg19 : FVec F S43x43 .f32) (main_arg20 : FVec F S43 .f32) (main_v33 : IVec S_ 1) : IVec S_ 1 :=
  let main_v34 : FVec F S43x43 .f32 := Host.absf main_arg7
  let main_cst_12 : FVec F S_ .f32 := constant S_ .f32 0x7F800000#32
  let main_v35 : FVec F S43x43 .f32 := broadcastInDim S43x43 ![] bcast_S_S43x43 main_cst_12
  let main_v36 : IVec S43x43 1 := cmpf .olt main_v34 main_v35
  let main_c_13 : IVec S_ 1 := constantI S_ 1 1#1
  let main_v37 : IVec S_ 1 := (fun x v => Host.reduce IntOp.andi x v reducesTo_S43x43_S_d0_1 h_S_) main_v36 main_c_13
  let main_v38 : IVec S_ 1 := andi main_v33 main_v37
  let main_v39 : FVec F S43 .f32 := Host.absf main_arg8
  let main_cst_14 : FVec F S_ .f32 := constant S_ .f32 0x7F800000#32
  let main_v40 : FVec F S43 .f32 := broadcastInDim S43 ![] bcast_S_S43 main_cst_14
  let main_v41 : IVec S43 1 := cmpf .olt main_v39 main_v40
  let main_c_15 : IVec S_ 1 := constantI S_ 1 1#1
  let main_v42 : IVec S_ 1 := (fun x v => Host.reduce IntOp.andi x v reducesTo_S43_S_d0 h_S_) main_v41 main_c_15
  let main_v43 : IVec S_ 1 := andi main_v38 main_v42
  let main_v44 : FVec F S43x21 .f32 := Host.absf main_arg9
  let main_cst_16 : FVec F S_ .f32 := constant S_ .f32 0x7F800000#32
  let main_v45 : FVec F S43x21 .f32 := broadcastInDim S43x21 ![] bcast_S_S43x21 main_cst_16
  let main_v46 : IVec S43x21 1 := cmpf .olt main_v44 main_v45
  let main_c_17 : IVec S_ 1 := constantI S_ 1 1#1
  let main_v47 : IVec S_ 1 := (fun x v => Host.reduce IntOp.andi x v reducesTo_S43x21_S_d0_1 h_S_) main_v46 main_c_17
  let main_v48 : IVec S_ 1 := andi main_v43 main_v47
  let main_v49 : FVec F S21 .f32 := Host.absf main_arg10
  let main_cst_18 : FVec F S_ .f32 := constant S_ .f32 0x7F800000#32
  let main_v50 : FVec F S21 .f32 := broadcastInDim S21 ![] bcast_S_S21 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S43 .f32) (main_arg5 : FVec F S43x43 .f32) (main_arg6 : FVec F S43 .f32) (main_arg7 : FVec F S43x43 .f32) (main_arg8 : FVec F S43 .f32) (main_arg9 : FVec F S43x21 .f32) (main_arg10 : FVec F S21 .f32) (main_arg11 : FVec F S21x43 .f32) (main_arg12 : FVec F S43 .f32) (main_arg13 : FVec F S43x43 .f32) (main_arg14 : FVec F S43 .f32) (main_arg15 : FVec F S43x43 .f32) (main_arg16 : FVec F S43 .f32) (main_arg17 : FVec F S43x43 .f32) (main_arg18 : FVec F S43 .f32) (main_arg19 : FVec F S43x43 .f32) (main_arg20 : FVec F S43 .f32) (main_v13 : IVec S_ 1) (main_v16 : IVec S43x43 1) : IVec S_ 1 :=
  let main_c_5 : IVec S_ 1 := constantI S_ 1 1#1
  let main_v17 : IVec S_ 1 := (fun x v => Host.reduce IntOp.andi x v reducesTo_S43x43_S_d0_1 h_S_) main_v16 main_c_5
  let main_v18 : IVec S_ 1 := andi main_v13 main_v17
  let main_v19 : FVec F S43 .f32 := Host.absf main_arg4
  let main_cst_6 : FVec F S_ .f32 := constant S_ .f32 0x7F800000#32
  let main_v20 : FVec F S43 .f32 := broadcastInDim S43 ![] bcast_S_S43 main_cst_6
  let main_v21 : IVec S43 1 := cmpf .olt main_v19 main_v20
  let main_c_7 : IVec S_ 1 := constantI S_ 1 1#1
  let main_v22 : IVec S_ 1 := (fun x v => Host.reduce IntOp.andi x v reducesTo_S43_S_d0 h_S_) main_v21 main_c_7
  let main_v23 : IVec S_ 1 := andi main_v18 main_v22
  let main_v24 : FVec F S43x43 .f32 := Host.absf main_arg5
  let main_cst_8 : FVec F S_ .f32 := constant S_ .f32 0x7F800000#32
  let main_v25 : FVec F S43x43 .f32 := broadcastInDim S43x43 ![] bcast_S_S43x43 main_cst_8
  let main_v26 : IVec S43x43 1 := cmpf .olt main_v24 main_v25
  let main_c_9 : IVec S_ 1 := constantI S_ 1 1#1
  let main_v27 : IVec S_ 1 := (fun x v => Host.reduce IntOp.andi x v reducesTo_S43x43_S_d0_1 h_S_) main_v26 main_c_9
  let main_v28 : IVec S_ 1 := andi main_v23 main_v27
  let main_v29 : FVec F S43 .f32 := Host.absf main_arg6
  let main_cst_10 : FVec F S_ .f32 := constant S_ .f32 0x7F800000#32
  let main_v30 : FVec F S43 .f32 := broadcastInDim S43 ![] bcast_S_S43 main_cst_10
  let main_v31 : IVec S43 1 := cmpf .olt main_v29 main_v30
  let main_c_11 : IVec S_ 1 := constantI S_ 1 1#1
  let main_v32 : IVec S_ 1 := (fun x v => Host.reduce IntOp.andi x v reducesTo_S43_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1048576x43 .f32) (main_arg1 : FVec F S43x43 .f32) (main_arg2 : FVec F S43 .f32) (main_arg3 : FVec F S43x43 .f32) (main_arg4 : FVec F S43 .f32) (main_arg5 : FVec F S43x43 .f32) (main_arg6 : FVec F S43 .f32) (main_arg7 : FVec F S43x43 .f32) (main_arg8 : FVec F S43 .f32) (main_arg9 : FVec F S43x21 .f32) (main_arg10 : FVec F S21 .f32) (main_arg11 : FVec F S21x43 .f32) (main_arg12 : FVec F S43 .f32) (main_arg13 : FVec F S43x43 .f32) (main_arg14 : FVec F S43 .f32) (main_arg15 : FVec F S43x43 .f32) (main_arg16 : FVec F S43 .f32) (main_arg17 : FVec F S43x43 .f32) (main_arg18 : FVec F S43 .f32) (main_arg19 : FVec F S43x43 .f32) (main_arg20 : FVec F S43 .f32) : IVec S_ 1 :=
  let main_v0 : FVec F S1048576x43 .f32 := Host.absf main_arg0
  let main_cst : FVec F S_ .f32 := constant S_ .f32 0x7F800000#32
  let main_v1 : FVec F S1048576x43 .f32 := broadcastInDim S1048576x43 ![] bcast_S_S1048576x43 main_cst
  let main_v2 : IVec S1048576x43 1 := cmpf .olt main_v0 main_v1
  let main_c : IVec S_ 1 := constantI S_ 1 1#1
  let main_v3 : IVec S_ 1 := (fun x v => Host.reduce IntOp.andi x v reducesTo_S1048576x43_S_d0_1 h_S_) main_v2 main_c
  let main_v4 : FVec F S43x43 .f32 := Host.absf main_arg1
  let main_cst_0 : FVec F S_ .f32 := constant S_ .f32 0x7F800000#32
  let main_v5 : FVec F S43x43 .f32 := broadcastInDim S43x43 ![] bcast_S_S43x43 main_cst_0
  let main_v6 : IVec S43x43 1 := cmpf .olt main_v4 main_v5
  let main_c_1 : IVec S_ 1 := constantI S_ 1 1#1
  let main_v7 : IVec S_ 1 := (fun x v => Host.reduce IntOp.andi x v reducesTo_S43x43_S_d0_1 h_S_) main_v6 main_c_1
  let main_v8 : IVec S_ 1 := andi main_v3 main_v7
  let main_v9 : FVec F S43 .f32 := Host.absf main_arg2
  let main_cst_2 : FVec F S_ .f32 := constant S_ .f32 0x7F800000#32
  let main_v10 : FVec F S43 .f32 := broadcastInDim S43 ![] bcast_S_S43 main_cst_2
  let main_v11 : IVec S43 1 := cmpf .olt main_v9 main_v10
  let main_c_3 : IVec S_ 1 := constantI S_ 1 1#1
  let main_v12 : IVec S_ 1 := (fun x v => Host.reduce IntOp.andi x v reducesTo_S43_S_d0 h_S_) main_v11 main_c_3
  let main_v13 : IVec S_ 1 := andi main_v8 main_v12
  let main_v14 : FVec F S43x43 .f32 := Host.absf main_arg3
  let main_cst_4 : FVec F S_ .f32 := constant S_ .f32 0x7F800000#32
  let main_v15 : FVec F S43x43 .f32 := broadcastInDim S43x43 ![] bcast_S_S43x43 main_cst_4
  let main_v16 : IVec S43x43 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1048576x43 : Shape := ⟨2, ![1048576, 43]⟩
abbrev S43x43 : Shape := ⟨2, ![43, 43]⟩
abbrev S43 : Shape := ⟨1, ![43]⟩
abbrev S43x21 : Shape := ⟨2, ![43, 21]⟩
abbrev S21 : Shape := ⟨1, ![21]⟩
abbrev S21x43 : Shape := ⟨2, ![21, 43]⟩
abbrev S1x43 : Shape := ⟨2, ![1, 43]⟩
abbrev S1x21 : Shape := ⟨2, ![1, 21]⟩
abbrev S4096x43 : Shape := ⟨2, ![4096, 43]⟩
abbrev S4096x21 : Shape := ⟨2, ![4096, 21]⟩

abbrev nBuf : Space → Nat
  | .hbm => 32
  | .vmem => 24
  | .smem => 0
  | _ => 0

abbrev bufTy : (tb : Table) → Fin (tcTables nBuf tb) → BufTy
  | .hbm, ⟨0, _⟩ => ⟨S1048576x43, .f32⟩
  | .hbm, ⟨1, _⟩ => ⟨S43x43, .f32⟩
  | .hbm, ⟨2, _⟩ => ⟨S43, .f32⟩
  | .hbm, ⟨3, _⟩ => ⟨S43x43, .f32⟩
  | .hbm, ⟨4, _⟩ => ⟨S43, .f32⟩
  | .hbm, ⟨5, _⟩ => ⟨S43x43, .f32⟩
  | .hbm, ⟨6, _⟩ => ⟨S43, .f32⟩
  | .hbm, ⟨7, _⟩ => ⟨S43x43, .f32⟩
  | .hbm, ⟨8, _⟩ => ⟨S43, .f32⟩
  | .hbm, ⟨9, _⟩ => ⟨S43x21, .f32⟩
  | .hbm, ⟨10, _⟩ => ⟨S21, .f32⟩
  | .hbm, ⟨11, _⟩ => ⟨S21x43, .f32⟩
  | .hbm, ⟨12, _⟩ => ⟨S43, .f32⟩
  | .hbm, ⟨13, _⟩ => ⟨S43x43, .f32⟩
  | .hbm, ⟨14, _⟩ => ⟨S43, .f32⟩
  | .hbm, ⟨15, _⟩ => ⟨S43x43, .f32⟩
  | .hbm, ⟨16, _⟩ => ⟨S43, .f32⟩
  | .hbm, ⟨17, _⟩ => ⟨S43x43, .f32⟩
  | .hbm, ⟨18, _⟩ => ⟨S43, .f32⟩
  | .hbm, ⟨19, _⟩ => ⟨S43x43, .f32⟩
  | .hbm, ⟨20, _⟩ => ⟨S43, .f32⟩
  | .hbm, ⟨21, _⟩ => ⟨S1x43, .f32⟩
  | .hbm, ⟨22, _⟩ => ⟨S1x43, .f32⟩
  | .hbm, ⟨23, _⟩ => ⟨S1x43, .f32⟩
  | .hbm, ⟨24, _⟩ => ⟨S1x43, .f32⟩
  | .hbm, ⟨25, _⟩ => ⟨S1x21, .f32⟩
  | .hbm, ⟨26, _⟩ => ⟨S1x43, .f32⟩
  | .hbm, ⟨27, _⟩ => ⟨S1x43, .f32⟩
  | .hbm, ⟨28, _⟩ => ⟨S1x43, .f32⟩
  | .hbm, ⟨29, _⟩ => ⟨S1x43, .f32⟩
  | .hbm, ⟨30, _⟩ => ⟨S1x43, .f32⟩
  | .hbm, ⟨31, _⟩ => ⟨S1048576x43, .f32⟩
  | .local _ .vmem, ⟨0, _⟩ => ⟨S4096x43, .f32⟩
  | .local _ .vmem, ⟨1, _⟩ => ⟨S4096x43, .f32⟩
  | .local _ .vmem, ⟨2, _⟩ => ⟨S43x43, .f32⟩
  | .local _ .vmem, ⟨3, _⟩ => ⟨S1x43, .f32⟩
  | .local _ .vmem, ⟨4, _⟩ => ⟨S43x43, .f32⟩
  | .local _ .vmem, ⟨5, _⟩ => ⟨S1x43, .f32⟩
  | .local _ .vmem, ⟨6, _⟩ => ⟨S43x43, .f32⟩
  | .local _ .vmem, ⟨7, _⟩ => ⟨S1x43, .f32⟩
  | .local _ .vmem, ⟨8, _⟩ => ⟨S43x43, .f32⟩
  | .local _ .vmem, ⟨9, _⟩ => ⟨S1x43, .f32⟩
  | .local _ .vmem, ⟨10, _⟩ => ⟨S43x21, .f32⟩
  | .local _ .vmem, ⟨11, _⟩ => ⟨S1x21, .f32⟩
  | .local _ .vmem, ⟨12, _⟩ => ⟨S21x43, .f32⟩
  | .local _ .vmem, ⟨13, _⟩ => ⟨S1x43, .f32⟩
  | .local _ .vmem, ⟨14, _⟩ => ⟨S43x43, .f32⟩
  | .local _ .vmem, ⟨15, _⟩ => ⟨S1x43, .f32⟩
  | .local _ .vmem, ⟨16, _⟩ => ⟨S43x43, .f32⟩
  | .local _ .vmem, ⟨17, _⟩ => ⟨S1x43, .f32⟩
  | .local _ .vmem, ⟨18, _⟩ => ⟨S43x43, .f32⟩
  | .local _ .vmem, ⟨19, _⟩ => ⟨S1x43, .f32⟩
  | .local _ .vmem, ⟨20, _⟩ => ⟨S43x43, .f32⟩
  | .local _ .vmem, ⟨21, _⟩ => ⟨S1x43, .f32⟩
  | .local _ .vmem, ⟨22, _⟩ => ⟨S4096x43, .f32⟩
  | .local _ .vmem, ⟨23, _⟩ => ⟨S4096x43, .f32⟩
  | _, _ => ⟨S1048576x43, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x43 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S43x43 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x43 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S43x43 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x43 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S43x43 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x43 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S43x43 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x43 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S43x21 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x21 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S21x43 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x43 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S43x43 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x43 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S43x43 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x43 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S43x43 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x43 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S43x43 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x43 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4096x43 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  shapeCasts_S43_S1x43 : S43.ShapeCasts S1x43
  shapeCasts_S21_S1x21 : S21.ShapeCasts S1x21
  inb_S4096x43_S4096x43_0_0 : ∀ a, (![0, 0] : Fin 2 → Nat) a + S4096x43.size a ≤ S4096x43.size a
  h_S4096x43 : 0 < S4096x43.numel
  inb_S43x43_S43x43_0_0 : ∀ a, (![0, 0] : Fin 2 → Nat) a + S43x43.size a ≤ S43x43.size a
  h_S43x43 : 0 < S43x43.numel
  bitsLt_bf16_f32 : FTy.bits .bf16 < FTy.bits .f32
  inb_S1x43_S1x43_0_0 : ∀ a, (![0, 0] : Fin 2 → Nat) a + S1x43.size a ≤ S1x43.size a
  h_S1x43 : 0 < S1x43.numel
  shapeCasts_S1x43_S1x43 : S1x43.ShapeCasts S1x43
  broadcasts_S1x43_S4096x43 : S1x43.Broadcasts S4096x43
  inb_S43x21_S43x21_0_0 : ∀ a, (![0, 0] : Fin 2 → Nat) a + S43x21.size a ≤ S43x21.size a
  h_S43x21 : 0 < S43x21.numel
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S4096x21 : S1x21.Broadcasts S4096x21
  inb_S21x43_S21x43_0_0 : ∀ a, (![0, 0] : Fin 2 → Nat) a + S21x43.size a ≤ S21x43.size a
  h_S21x43 : 0 < S21x43.numel
  dot_S4096x43_S43x43_S4096x43_1_0_0_1_n_n_wf : DotDims.WF S4096x43 S43x43 S4096x43 [1] [0] [0] [1] [] []
  dot_S4096x43_S43x21_S4096x21_1_0_0_1_n_n_wf : DotDims.WF S4096x43 S43x21 S4096x21 [1] [0] [0] [1] [] []
  dot_S4096x21_S21x43_S4096x43_1_0_0_1_n_n_wf : DotDims.WF S4096x21 S21x43 S4096x43 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x43.size a ≤ S1048576x43.size a
  hwx0_0 : ∀ i : grid0.Coords, EltTy.bits .f32 = 32 ∨ (Rect.block (s := S1048576x43) S4096x43.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S43x43.size a ≤ S43x43.size a
  hwx0_1 : ∀ i : grid0.Coords, EltTy.bits .f32 = 32 ∨ (Rect.block (s := S43x43) S43x43.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x43.size a ≤ S1x43.size a
  hwx0_2 : ∀ i : grid0.Coords, EltTy.bits .f32 = 32 ∨ (Rect.block (s := S1x43) S1x43.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S43x43.size a ≤ S43x43.size a
  hwx0_3 : ∀ i : grid0.Coords, EltTy.bits .f32 = 32 ∨ (Rect.block (s := S43x43) S43x43.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x43.size a ≤ S1x43.size a
  hwx0_4 : ∀ i : grid0.Coords, EltTy.bits .f32 = 32 ∨ (Rect.block (s := S1x43) S1x43.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S43x43.size a ≤ S43x43.size a
  hwx0_5 : ∀ i : grid0.Coords, EltTy.bits .f32 = 32 ∨ (Rect.block (s := S43x43) S43x43.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x43.size a ≤ S1x43.size a
  hwx0_6 : ∀ i : grid0.Coords, EltTy.bits .f32 = 32 ∨ (Rect.block (s := S1x43) S1x43.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S43x43.size a ≤ S43x43.size a
  hwx0_7 : ∀ i : grid0.Coords, EltTy.bits .f32 = 32 ∨ (Rect.block (s := S43x43) S43x43.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x43.size a ≤ S1x43.size a
  hwx0_8 : ∀ i : grid0.Coords, EltTy.bits .f32 = 32 ∨ (Rect.block (s := S1x43) S1x43.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S43x21.size a ≤ S43x21.size a
  hwx0_9 : ∀ i : grid0.Coords, EltTy.bits .f32 = 32 ∨ (Rect.block (s := S43x21) S43x21.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x21.size a ≤ S1x21.size a
  hwx0_10 : ∀ i : grid0.Coords, EltTy.bits .f32 = 32 ∨ (Rect.block (s := S1x21) S1x21.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S21x43.size a ≤ S21x43.size a
  hwx0_11 : ∀ i : grid0.Coords, EltTy.bits .f32 = 32 ∨ (Rect.block (s := S21x43) S21x43.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x43.size a ≤ S1x43.size a
  hwx0_12 : ∀ i : grid0.Coords, EltTy.bits .f32 = 32 ∨ (Rect.block (s := S1x43) S1x43.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S43x43.size a ≤ S43x43.size a
  hwx0_13 : ∀ i : grid0.Coords, EltTy.bits .f32 = 32 ∨ (Rect.block (s := S43x43) S43x43.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x43.size a ≤ S1x43.size a
  hwx0_14 : ∀ i : grid0.Coords, EltTy.bits .f32 = 32 ∨ (Rect.block (s := S1x43) S1x43.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S43x43.size a ≤ S43x43.size a
  hwx0_15 : ∀ i : grid0.Coords, EltTy.bits .f32 = 32 ∨ (Rect.block (s := S43x43) S43x43.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x43.size a ≤ S1x43.size a
  hwx0_16 : ∀ i : grid0.Coords, EltTy.bits .f32 = 32 ∨ (Rect.block (s := S1x43) S1x43.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S43x43.size a ≤ S43x43.size a
  hwx0_17 : ∀ i : grid0.Coords, EltTy.bits .f32 = 32 ∨ (Rect.block (s := S43x43) S43x43.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x43.size a ≤ S1x43.size a
  hwx0_18 : ∀ i : grid0.Coords, EltTy.bits .f32 = 32 ∨ (Rect.block (s := S1x43) S1x43.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S43x43.size a ≤ S43x43.size a
  hwx0_19 : ∀ i : grid0.Coords, EltTy.bits .f32 = 32 ∨ (Rect.block (s := S43x43) S43x43.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x43.size a ≤ S1x43.size a
  hwx0_20 : ∀ i : grid0.Coords, EltTy.bits .f32 = 32 ∨ (Rect.block (s := S1x43) S1x43.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4096x43.size a ≤ S1048576x43.size a
  hwx0_21 : ∀ i : grid0.Coords, EltTy.bits .f32 = 32 ∨ (Rect.block (s := S1048576x43) S4096x43.size (cc0_transform_21 i) (hinb0_21 i)).WholeWords (EltTy.packing .f32)

variable [Facts₀]

def dot_S4096x43_S43x43_S4096x43_1_0_0_1_n_n : DotDims S4096x43 S43x43 S4096x43 where
  lhsContracting := [1]
  rhsContracting := [0]
  lhsNonContracting := [0]
  rhsNonContracting := [1]
  lhsBatch := []
  rhsBatch := []
  wf := dot_S4096x43_S43x43_S4096x43_1_0_0_1_n_n_wf
def dot_S4096x43_S43x21_S4096x21_1_0_0_1_n_n : DotDims S4096x43 S43x21 S4096x21 where
  lhsContracting := [1]
  rhsContracting := [0]
  lhsNonContracting := [0]
  rhsNonContracting := [1]
  lhsBatch := []
  rhsBatch := []
  wf := dot_S4096x43_S43x21_S4096x21_1_0_0_1_n_n_wf
def dot_S4096x21_S21x43_S4096x43_1_0_0_1_n_n : DotDims S4096x21 S21x43 S4096x43 where
  lhsContracting := [1]
  rhsContracting := [0]
  lhsNonContracting := [0]
  rhsNonContracting := [1]
  lhsBatch := []
  rhsBatch := []
  wf := dot_S4096x21_S21x43_S4096x43_1_0_0_1_n_n_wf

abbrev win0_0 : Pipeline.Window sig grid0 :=
  Pipeline.Window.ofSpec (Memref.whole main_arg0) S4096x43.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S43x43.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x43.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S43x43.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x43.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S43x43.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x43.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S43x43.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x43.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S43x21.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x21.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S21x43.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x43.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S43x43.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x43.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S43x43.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x43.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S43x43.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8) S1x43.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S43x43.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v9) S1x43.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S4096x43.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S1048576x43 : Shape := ⟨2, ![1048576, 43]⟩
abbrev S43x43 : Shape := ⟨2, ![43, 43]⟩
abbrev S43 : Shape := ⟨1, ![43]⟩
abbrev S43x21 : Shape := ⟨2, ![43, 21]⟩
abbrev S21 : Shape := ⟨1, ![21]⟩
abbrev S21x43 : Shape := ⟨2, ![21, 43]⟩
abbrev S1x43 : Shape := ⟨2, ![1, 43]⟩
abbrev S1048576x21 : Shape := ⟨2, ![1048576, 21]⟩
abbrev S1x21 : Shape := ⟨2, ![1, 21]⟩

abbrev nBuf : Space → Nat
  | .hbm => 69
  | .vmem => 0
  | .smem => 0
  | _ => 0

abbrev bufTy : (tb : Table) → Fin (tcTables nBuf tb) → BufTy
  | .hbm, ⟨0, _⟩ => ⟨S1048576x43, .f32⟩
  | .hbm, ⟨1, _⟩ => ⟨S43x43, .f32⟩
  | .hbm, ⟨2, _⟩ => ⟨S43, .f32⟩
  | .hbm, ⟨3, _⟩ => ⟨S43x43, .f32⟩
  | .hbm, ⟨4, _⟩ => ⟨S43, .f32⟩
  | .hbm, ⟨5, _⟩ => ⟨S43x43, .f32⟩
  | .hbm, ⟨6, _⟩ => ⟨S43, .f32⟩
  | .hbm, ⟨7, _⟩ => ⟨S43x43, .f32⟩
  | .hbm, ⟨8, _⟩ => ⟨S43, .f32⟩
  | .hbm, ⟨9, _⟩ => ⟨S43x21, .f32⟩
  | .hbm, ⟨10, _⟩ => ⟨S21, .f32⟩
  | .hbm, ⟨11, _⟩ => ⟨S21x43, .f32⟩
  | .hbm, ⟨12, _⟩ => ⟨S43, .f32⟩
  | .hbm, ⟨13, _⟩ => ⟨S43x43, .f32⟩
  | .hbm, ⟨14, _⟩ => ⟨S43, .f32⟩
  | .hbm, ⟨15, _⟩ => ⟨S43x43, .f32⟩
  | .hbm, ⟨16, _⟩ => ⟨S43, .f32⟩
  | .hbm, ⟨17, _⟩ => ⟨S43x43, .f32⟩
  | .hbm, ⟨18, _⟩ => ⟨S43, .f32⟩
  | .hbm, ⟨19, _⟩ => ⟨S43x43, .f32⟩
  | .hbm, ⟨20, _⟩ => ⟨S43, .f32⟩
  | .hbm, ⟨21, _⟩ => ⟨S1048576x43, .f32⟩
  | .hbm, ⟨22, _⟩ => ⟨S1x43, .f32⟩
  | .hbm, ⟨23, _⟩ => ⟨S1048576x43, .f32⟩
  | .hbm, ⟨24, _⟩ => ⟨S1048576x43, .f32⟩
  | .hbm, ⟨25, _⟩ => ⟨S1048576x43, .f32⟩
  | .hbm, ⟨26, _⟩ => ⟨S1048576x43, .f32⟩
  | .hbm, ⟨27, _⟩ => ⟨S1x43, .f32⟩
  | .hbm, ⟨28, _⟩ => ⟨S1048576x43, .f32⟩
  | .hbm, ⟨29, _⟩ => ⟨S1048576x43, .f32⟩
  | .hbm, ⟨30, _⟩ => ⟨S1048576x43, .f32⟩
  | .hbm, ⟨31, _⟩ => ⟨S1048576x43, .f32⟩
  | .hbm, ⟨32, _⟩ => ⟨S1x43, .f32⟩
  | .hbm, ⟨33, _⟩ => ⟨S1048576x43, .f32⟩
  | .hbm, ⟨34, _⟩ => ⟨S1048576x43, .f32⟩
  | .hbm, ⟨35, _⟩ => ⟨S1048576x43, .f32⟩
  | .hbm, ⟨36, _⟩ => ⟨S1048576x43, .f32⟩
  | .hbm, ⟨37, _⟩ => ⟨S1x43, .f32⟩
  | .hbm, ⟨38, _⟩ => ⟨S1048576x43, .f32⟩
  | .hbm, ⟨39, _⟩ => ⟨S1048576x43, .f32⟩
  | .hbm, ⟨40, _⟩ => ⟨S1048576x43, .f32⟩
  | .hbm, ⟨41, _⟩ => ⟨S1048576x21, .f32⟩
  | .hbm, ⟨42, _⟩ => ⟨S1x21, .f32⟩
  | .hbm, ⟨43, _⟩ => ⟨S1048576x21, .f32⟩
  | .hbm, ⟨44, _⟩ => ⟨S1048576x21, .f32⟩
  | .hbm, ⟨45, _⟩ => ⟨S1048576x43, .f32⟩
  | .hbm, ⟨46, _⟩ => ⟨S1x43, .f32⟩
  | .hbm, ⟨47, _⟩ => ⟨S1048576x43, .f32⟩
  | .hbm, ⟨48, _⟩ => ⟨S1048576x43, .f32⟩
  | .hbm, ⟨49, _⟩ => ⟨S1048576x43, .f32⟩
  | .hbm, ⟨50, _⟩ => ⟨S1048576x43, .f32⟩
  | .hbm, ⟨51, _⟩ => ⟨S1x43, .f32⟩
  | .hbm, ⟨52, _⟩ => ⟨S1048576x43, .f32⟩
  | .hbm, ⟨53, _⟩ => ⟨S1048576x43, .f32⟩
  | .hbm, ⟨54, _⟩ => ⟨S1048576x43, .f32⟩
  | .hbm, ⟨55, _⟩ => ⟨S1048576x43, .f32⟩
  | .hbm, ⟨56, _⟩ => ⟨S1x43, .f32⟩
  | .hbm, ⟨57, _⟩ => ⟨S1048576x43, .f32⟩
  | .hbm, ⟨58, _⟩ => ⟨S1048576x43, .f32⟩
  | .hbm, ⟨59, _⟩ => ⟨S1048576x43, .f32⟩
  | .hbm, ⟨60, _⟩ => ⟨S1048576x43, .f32⟩
  | .hbm, ⟨61, _⟩ => ⟨S1x43, .f32⟩
  | .hbm, ⟨62, _⟩ => ⟨S1048576x43, .f32⟩
  | .hbm, ⟨63, _⟩ => ⟨S1048576x43, .f32⟩
  | .hbm, ⟨64, _⟩ => ⟨S1048576x43, .f32⟩
  | .hbm, ⟨65, _⟩ => ⟨S1048576x43, .f32⟩
  | .hbm, ⟨66, _⟩ => ⟨S1x43, .f32⟩
  | .hbm, ⟨67, _⟩ => ⟨S1048576x43, .f32⟩
  | .hbm, ⟨68, _⟩ => ⟨S1048576x43, .f32⟩
  | _, _ => ⟨S1048576x43, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S43_S1x43_1 : S43.BroadcastsInDim S1x43 (![1] : Fin 1 → Fin S1x43.rank)
  bcast_S1x43_S1048576x43_0_1 : S1x43.BroadcastsInDim S1048576x43 (![0, 1] : Fin 2 → Fin S1048576x43.rank)
  bcast_S21_S1x21_1 : S21.BroadcastsInDim S1x21 (![1] : Fin 1 → Fin S1x21.rank)
  bcast_S1x21_S1048576x21_0_1 : S1x21.BroadcastsInDim S1048576x21 (![0, 1] : Fin 2 → Fin S1048576x21.rank)
  dot_S1048576x43_S43x43_S1048576x43_1_0_0_1_n_n_wf : DotDims.WF S1048576x43 S43x43 S1048576x43 [1] [0] [0] [1] [] []
  dot_S1048576x43_S43x21_S1048576x21_1_0_0_1_n_n_wf : DotDims.WF S1048576x43 S43x21 S1048576x21 [1] [0] [0] [1] [] []
  dot_S1048576x21_S21x43_S1048576x43_1_0_0_1_n_n_wf : DotDims.WF S1048576x21 S21x43 S1048576x43 [1] [0] [0] [1] [] []

variable [Facts₀]

def dot_S1048576x43_S43x43_S1048576x43_1_0_0_1_n_n : DotDims S1048576x43 S43x43 S1048576x43 where
  lhsContracting := [1]
  rhsContracting := [0]
  lhsNonContracting := [0]
  rhsNonContracting := [1]
  lhsBatch := []
  rhsBatch := []
  wf := dot_S1048576x43_S43x43_S1048576x43_1_0_0_1_n_n_wf
def dot_S1048576x43_S43x21_S1048576x21_1_0_0_1_n_n : DotDims S1048576x43 S43x21 S1048576x21 where
  lhsContracting := [1]
  rhsContracting := [0]
  lhsNonContracting := [0]
  rhsNonContracting := [1]
  lhsBatch := []
  rhsBatch := []
  wf := dot_S1048576x43_S43x21_S1048576x21_1_0_0_1_n_n_wf
def dot_S1048576x21_S21x43_S1048576x43_1_0_0_1_n_n : DotDims S1048576x21 S21x43 S1048576x43 where
  lhsContracting := [1]
  rhsContracting := [0]
  lhsNonContracting := [0]
  rhsNonContracting := [1]
  lhsBatch := []
  rhsBatch := []
  wf := dot_S1048576x21_S21x43_S1048576x43_1_0_0_1_n_n_wf

class Facts : Prop extends Facts₀ where

variable [Facts]
-- ==== Proof.Net.lean ====
/-
  The network as mathematics, with no program in sight.

  A dense layer sends a row `h` (one sample's activations, `K` numbers) to the row
  `j ↦ (∑ k, h k * W k j) + b j` of `N` numbers; the activation applies the hyperbolic tangent of the extended
  reals entry by entry (`Ideal.tanh`: the real `tanh`, with `-1` and `1` at the two infinities). The autoencoder
  is ten dense layers, an activation after each of them except the fifth (the bottleneck of width 21) and the tenth
  (the output). Every sample is treated alone: row `r` of the result depends on row `r` of the input only.

  Arrays are functions on indices; `row`, `mat`, `vec` and `vec2` read a matrix's row, a whole matrix, a
  vector and a one-row matrix as functions of plain coordinates.
-/
import Idealize.ShloMosaic.PureOps.Ideal
import Idealize.ShloMosaic.Lib.ValueIdx

noncomputable section

open scoped BigOperators

namespace Cert.Net

open Idealize.ShloMosaic Idealize.ShloMosaic.ValueIdx

/-- One dense layer on one sample: `h · W + b`. -/
def lin {K N : ℕ} (h : Fin K → EReal) (W : Fin K → Fin N → EReal) (b : Fin N → EReal) : Fin N → EReal :=
  fun j => (∑ k : Fin K, h k * W k j) + b j

/-- The activation on one sample: `tanh`, entry by entry. -/
def act {N : ℕ} (h : Fin N → EReal) : Fin N → EReal := fun j => Ideal.tanh (h j)

/-- Row `r` of a matrix. -/
def row {a b : ℕ} (x : (⟨2, ![a, b]⟩ : Shape).Idx → EReal) (r : Fin a) : Fin b → EReal := fun k => x (ix2 r k)

/-- A matrix as a function of its two coordinates. -/
def mat {a b : ℕ} (W : (⟨2, ![a, b]⟩ : Shape).Idx → EReal) : Fin a → Fin b → EReal := fun k j => W (ix2 k j)

/-- A vector as a function of its coordinate. -/
def vec {n : ℕ} (v : (⟨1, ![n]⟩ : Shape).Idx → EReal) : Fin n → EReal := fun j => v (ix1 j)

/-- The one row of a `1 × n` matrix. -/
def vec2 {n : ℕ} (v : (⟨2, ![1, n]⟩ : Shape).Idx → EReal) : Fin n → EReal := fun j => v (ix2 (0 : Fin 1) j)

/-- The first four layers (each followed by the activation): 43 → 43 → 43 → 43 → 43. -/
def enc (x : Fin 43 → EReal) (W0 : Fin 43 → Fin 43 → EReal) (b0 : Fin 43 → EReal) (W1 : Fin 43 → Fin 43 → EReal)
    (b1 : Fin 43 → EReal) (W2 : Fin 43 → Fin 43 → EReal) (b2 : Fin 43 → EReal) (W3 : Fin 43 → Fin 43 → EReal)
    (b3 : Fin 43 → EReal) : Fin 43 → EReal :=
  act (lin (act (lin (act (lin (act (lin x W0 b0)) W1 b1)) W2 b2)) W3 b3)

/-- The next four layers: the bottleneck 43 → 21 (no activation), then 21 → 43 → 43 → 43 with activations. -/
def mid (h : Fin 43 → EReal) (W4 : Fin 43 → Fin 21 → EReal) (b4 : Fin 21 → EReal) (W5 : Fin 21 → Fin 43 → EReal)
    (b5 : Fin 43 → EReal) (W6 : Fin 43 → Fin 43 → EReal) (b6 : Fin 43 → EReal) (W7 : Fin 43 → Fin 43 → EReal)
    (b7 : Fin 43 → EReal) : Fin 43 → EReal :=
  act (lin (act (lin (act (lin (lin h W4 b4) W5 b5)) W6 b6)) W7 b7)

/-- The last two layers: 43 → 43 with the activation, then 43 → 43 without. -/
def dec (h : Fin 43 → EReal) (W8 : Fin 43 → Fin 43 → EReal) (b8 : Fin 43 → EReal) (W9 : Fin 43 → Fin 43 → EReal)
    (b9 : Fin 43 → EReal) : Fin 43 → EReal :=
  lin (act (lin h W8 b8)) W9 b9

/-- The whole autoencoder on one sample. -/
def net (x : Fin 43 → EReal) (W0 : Fin 43 → Fin 43 → EReal) (b0 : Fin 43 → EReal) (W1 : Fin 43 → Fin 43 → EReal)
    (b1 : Fin 43 → EReal) (W2 : Fin 43 → Fin 43 → EReal) (b2 : Fin 43 → EReal) (W3 : Fin 43 → Fin 43 → EReal)
    (b3 : Fin 43 → EReal) (W4 : Fin 43 → Fin 21 → EReal) (b4 : Fin 21 → EReal) (W5 : Fin 21 → Fin 43 → EReal)
    (b5 : Fin 43 → EReal) (W6 : Fin 43 → Fin 43 → EReal) (b6 : Fin 43 → EReal) (W7 : Fin 43 → Fin 43 → EReal)
    (b7 : Fin 43 → EReal) (W8 : Fin 43 → Fin 43 → EReal) (b8 : Fin 43 → EReal) (W9 : Fin 43 → Fin 43 → EReal)
    (b9 : Fin 43 → EReal) : Fin 43 → EReal :=
  dec (mid (enc x W0 b0 W1 b1 W2 b2 W3 b3) W4 b4 W5 b5 W6 b6 W7 b7) W8 b8 W9 b9

end Cert.Net

end
-- ==== Proof.KernelLayer.lean ====
/-
  One dense layer of the kernel's body, read on one row of a block.

  The body holds a block of 4096 samples. A layer narrows the block and the weight matrix to bf16 — which changes
  nothing on the extended reals —, multiplies them into a zero accumulator, adds the bias (a one-row matrix repeated
  down the 4096 rows) and, for most layers, applies `tanh`. Entry `(p, q)` of the product is the sum over `k` of
  the block's `(p, k)` entry times the weights' `(k, q)` entry: the contraction runs over the block's second axis and
  the weights' first. So row `p` of the layer's result is the layer of the mathematics (`Net.lin`, `Net.act`)
  applied to row `p` of the block. The three shapes that occur are 43 → 43, 43 → 21 and 21 → 43.
-/
import proofs.«168321_j72267119723145_1_alg».proof.KernelIdeal
import proofs.«168321_j72267119723145_1_alg».proof.Proof.Gen.KernelIdeal
import proofs.«168321_j72267119723145_1_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Facts₀ Cert.Net Idealize.ShloMosaic Idealize.ShloMosaic.ValueIdx

/-! ## Narrowing to bf16 is nothing on the extended reals -/

/-- A row of a narrowed block is the row of the block. -/
theorem row_narrow_43 (x : FVec Ideal S4096x43 .f32) (p : Fin 4096) : row (truncf .bf16 x bitsLt_bf16_f32) p = row x p := rfl
theorem row_narrow_21 (x : FVec Ideal S4096x21 .f32) (p : Fin 4096) : row (truncf .bf16 x bitsLt_bf16_f32) p = row x p := rfl
/-- A narrowed weight matrix is the weight matrix. -/
theorem mat_narrow_43_43 (W : FVec Ideal S43x43 .f32) : mat (truncf .bf16 W bitsLt_bf16_f32) = mat W := rfl
theorem mat_narrow_43_21 (W : FVec Ideal S43x21 .f32) : mat (truncf .bf16 W bitsLt_bf16_f32) = mat W := rfl
theorem mat_narrow_21_43 (W : FVec Ideal S21x43 .f32) : mat (truncf .bf16 W bitsLt_bf16_f32) = mat W := rfl

/-! ## 43 → 43 -/

theorem mm_43_43_l0 (i : S4096x43.Idx) (c : dot_S4096x43_S43x43_S4096x43_1_0_0_1_n_n.contr.Idx) : (dot_S4096x43_S43x43_S4096x43_1_0_0_1_n_n.lhsIdx i c 0).val = (i 0).val := by
  unfold DotDims.lhsIdx
  rw [dif_neg (show ¬(0 : Fin S4096x43.rank) ∈ dot_S4096x43_S43x43_S4096x43_1_0_0_1_n_n.lhsBatch by decide), dif_pos (show (0 : Fin S4096x43.rank) ∈ dot_S4096x43_S43x43_S4096x43_1_0_0_1_n_n.lhsNonContracting by decide)]
  rfl
theorem mm_43_43_l1 (i : S4096x43.Idx) (c : dot_S4096x43_S43x43_S4096x43_1_0_0_1_n_n.contr.Idx) : (dot_S4096x43_S43x43_S4096x43_1_0_0_1_n_n.lhsIdx i c 1).val = (c ⟨0, by decide⟩).val :=
  dot_S4096x43_S43x43_S4096x43_1_0_0_1_n_n.lhsIdx_val_of_single rfl i c
theorem mm_43_43_r0 (i : S4096x43.Idx) (c : dot_S4096x43_S43x43_S4096x43_1_0_0_1_n_n.contr.Idx) : (dot_S4096x43_S43x43_S4096x43_1_0_0_1_n_n.rhsIdx i c 0).val = (c ⟨0, by decide⟩).val :=
  dot_S4096x43_S43x43_S4096x43_1_0_0_1_n_n.rhsIdx_val_of_single rfl i c
theorem mm_43_43_r1 (i : S4096x43.Idx) (c : dot_S4096x43_S43x43_S4096x43_1_0_0_1_n_n.contr.Idx) : (dot_S4096x43_S43x43_S4096x43_1_0_0_1_n_n.rhsIdx i c 1).val = (i 1).val := by
  unfold DotDims.rhsIdx
  rw [dif_neg (show ¬(1 : Fin S43x43.rank) ∈ dot_S4096x43_S43x43_S4096x43_1_0_0_1_n_n.rhsBatch by decide), dif_pos (show (1 : Fin S43x43.rank) ∈ dot_S4096x43_S43x43_S4096x43_1_0_0_1_n_n.rhsNonContracting by decide)]
  rfl

/-- The block's matrix product with a weight matrix into a zero accumulator, at entry `(p, q)`: row `p` of the
    block against column `q` of the weights. -/
theorem mm_43_43 (h : FVec Ideal S4096x43 .bf16) (W : FVec Ideal S43x43 .bf16) (p : Fin 4096) (q : Fin 43) :
    matmul dot_S4096x43_S43x43_S4096x43_1_0_0_1_n_n none h W (constant (F := Ideal) S4096x43 .f32 0x00000000#32) (ix2 p q)
      = ∑ k : Fin 43, h (ix2 p k) * W (ix2 k q) := by
  refine (Ideal.matmul_constant_zero_apply dot_S4096x43_S43x43_S4096x43_1_0_0_1_n_n none h W (ix2 p q)).trans ?_
  rw [← Equiv.sum_comp (contrEquiv1 dot_S4096x43_S43x43_S4096x43_1_0_0_1_n_n 43 rfl rfl).symm]
  refine Finset.sum_congr rfl fun k _ => ?_
  have hk := contrEquiv1_symm_val dot_S4096x43_S43x43_S4096x43_1_0_0_1_n_n 43 rfl rfl k
  have el : dot_S4096x43_S43x43_S4096x43_1_0_0_1_n_n.lhsIdx (ix2 p q) ((contrEquiv1 dot_S4096x43_S43x43_S4096x43_1_0_0_1_n_n 43 rfl rfl).symm k) = ix2 p k := funext fun a => Fin.ext (by
    match a with
    | ⟨0, _⟩ => exact mm_43_43_l0 _ _
    | ⟨1, _⟩ => exact (mm_43_43_l1 _ _).trans hk)
  have er : dot_S4096x43_S43x43_S4096x43_1_0_0_1_n_n.rhsIdx (ix2 p q) ((contrEquiv1 dot_S4096x43_S43x43_S4096x43_1_0_0_1_n_n 43 rfl rfl).symm k) = ix2 k q := funext fun a => Fin.ext (by
    match a with
    | ⟨0, _⟩ => exact (mm_43_43_r0 _ _).trans hk
    | ⟨1, _⟩ => exact mm_43_43_r1 _ _)
  rw [el, er]

/-- One dense layer as the body computes it on a block — the (narrowed) block times the (narrowed) weights into a
    zero accumulator, the one-row bias repeated down the rows and added — is, on row `p`, the layer of the
    mathematics on that row. -/
theorem lin_43_43 (h : FVec Ideal S4096x43 .bf16) (W : FVec Ideal S43x43 .bf16) (b : FVec Ideal S1x43 .f32) (p : Fin 4096) :
    row (addf (matmul dot_S4096x43_S43x43_S4096x43_1_0_0_1_n_n none h W (constant (F := Ideal) S4096x43 .f32 0x00000000#32))
        (broadcastTo S4096x43 (shapeCast S1x43 b shapeCasts_S1x43_S1x43) broadcasts_S1x43_S4096x43)) p
      = lin (row h p) (mat W) (vec2 b) := by
  funext q
  show addf _ _ (ix2 p q) = _
  rw [addf_apply, mm_43_43, broadcastTo_1b_ab_apply, shapeCast_self]
  rfl

/-- The same layer followed by the activation. -/
theorem tlin_43_43 (h : FVec Ideal S4096x43 .bf16) (W : FVec Ideal S43x43 .bf16) (b : FVec Ideal S1x43 .f32) (p : Fin 4096) :
    row (tanh (addf (matmul dot_S4096x43_S43x43_S4096x43_1_0_0_1_n_n none h W (constant (F := Ideal) S4096x43 .f32 0x00000000#32))
        (broadcastTo S4096x43 (shapeCast S1x43 b shapeCasts_S1x43_S1x43) broadcasts_S1x43_S4096x43))) p
      = act (lin (row h p) (mat W) (vec2 b)) :=
  (show row (tanh (addf (matmul dot_S4096x43_S43x43_S4096x43_1_0_0_1_n_n none h W (constant (F := Ideal) S4096x43 .f32 0x00000000#32))
        (broadcastTo S4096x43 (shapeCast S1x43 b shapeCasts_S1x43_S1x43) broadcasts_S1x43_S4096x43))) p = act (row (addf (matmul dot_S4096x43_S43x43_S4096x43_1_0_0_1_n_n none h W (constant (F := Ideal) S4096x43 .f32 0x00000000#32))
        (broadcastTo S4096x43 (shapeCast S1x43 b shapeCasts_S1x43_S1x43) broadcasts_S1x43_S4096x43)) p) from rfl).trans (congrArg act (lin_43_43 h W b p))

/-! ## 43 → 21 -/

theorem mm_43_21_l0 (i : S4096x21.Idx) (c : dot_S4096x43_S43x21_S4096x21_1_0_0_1_n_n.contr.Idx) : (dot_S4096x43_S43x21_S4096x21_1_0_0_1_n_n.lhsIdx i c 0).val = (i 0).val := by
  unfold DotDims.lhsIdx
  rw [dif_neg (show ¬(0 : Fin S4096x43.rank) ∈ dot_S4096x43_S43x21_S4096x21_1_0_0_1_n_n.lhsBatch by decide), dif_pos (show (0 : Fin S4096x43.rank) ∈ dot_S4096x43_S43x21_S4096x21_1_0_0_1_n_n.lhsNonContracting by decide)]
  rfl
theorem mm_43_21_l1 (i : S4096x21.Idx) (c : dot_S4096x43_S43x21_S4096x21_1_0_0_1_n_n.contr.Idx) : (dot_S4096x43_S43x21_S4096x21_1_0_0_1_n_n.lhsIdx i c 1).val = (c ⟨0, by decide⟩).val :=
  dot_S4096x43_S43x21_S4096x21_1_0_0_1_n_n.lhsIdx_val_of_single rfl i c
theorem mm_43_21_r0 (i : S4096x21.Idx) (c : dot_S4096x43_S43x21_S4096x21_1_0_0_1_n_n.contr.Idx) : (dot_S4096x43_S43x21_S4096x21_1_0_0_1_n_n.rhsIdx i c 0).val = (c ⟨0, by decide⟩).val :=
  dot_S4096x43_S43x21_S4096x21_1_0_0_1_n_n.rhsIdx_val_of_single rfl i c
theorem mm_43_21_r1 (i : S4096x21.Idx) (c : dot_S4096x43_S43x21_S4096x21_1_0_0_1_n_n.contr.Idx) : (dot_S4096x43_S43x21_S4096x21_1_0_0_1_n_n.rhsIdx i c 1).val = (i 1).val := by
  unfold DotDims.rhsIdx
  rw [dif_neg (show ¬(1 : Fin S43x21.rank) ∈ dot_S4096x43_S43x21_S4096x21_1_0_0_1_n_n.rhsBatch by decide), dif_pos (show (1 : Fin S43x21.rank) ∈ dot_S4096x43_S43x21_S4096x21_1_0_0_1_n_n.rhsNonContracting by decide)]
  rfl

/-- The block's matrix product with a weight matrix into a zero accumulator, at entry `(p, q)`: row `p` of the
    block against column `q` of the weights. -/
theorem mm_43_21 (h : FVec Ideal S4096x43 .bf16) (W : FVec Ideal S43x21 .bf16) (p : Fin 4096) (q : Fin 21) :
    matmul dot_S4096x43_S43x21_S4096x21_1_0_0_1_n_n none h W (constant (F := Ideal) S4096x21 .f32 0x00000000#32) (ix2 p q)
      = ∑ k : Fin 43, h (ix2 p k) * W (ix2 k q) := by
  refine (Ideal.matmul_constant_zero_apply dot_S4096x43_S43x21_S4096x21_1_0_0_1_n_n none h W (ix2 p q)).trans ?_
  rw [← Equiv.sum_comp (contrEquiv1 dot_S4096x43_S43x21_S4096x21_1_0_0_1_n_n 43 rfl rfl).symm]
  refine Finset.sum_congr rfl fun k _ => ?_
  have hk := contrEquiv1_symm_val dot_S4096x43_S43x21_S4096x21_1_0_0_1_n_n 43 rfl rfl k
  have el : dot_S4096x43_S43x21_S4096x21_1_0_0_1_n_n.lhsIdx (ix2 p q) ((contrEquiv1 dot_S4096x43_S43x21_S4096x21_1_0_0_1_n_n 43 rfl rfl).symm k) = ix2 p k := funext fun a => Fin.ext (by
    match a with
    | ⟨0, _⟩ => exact mm_43_21_l0 _ _
    | ⟨1, _⟩ => exact (mm_43_21_l1 _ _).trans hk)
  have er : dot_S4096x43_S43x21_S4096x21_1_0_0_1_n_n.rhsIdx (ix2 p q) ((contrEquiv1 dot_S4096x43_S43x21_S4096x21_1_0_0_1_n_n 43 rfl rfl).symm k) = ix2 k q := funext fun a => Fin.ext (by
    match a with
    | ⟨0, _⟩ => exact (mm_43_21_r0 _ _).trans hk
    | ⟨1, _⟩ => exact mm_43_21_r1 _ _)
  rw [el, er]

/-- One dense layer as the body computes it on a block — the (narrowed) block times the (narrowed) weights into a
    zero accumulator, the one-row bias repeated down the rows and added — is, on row `p`, the layer of the
    mathematics on that row. -/
theorem lin_43_21 (h : FVec Ideal S4096x43 .bf16) (W : FVec Ideal S43x21 .bf16) (b : FVec Ideal S1x21 .f32) (p : Fin 4096) :
    row (addf (matmul dot_S4096x43_S43x21_S4096x21_1_0_0_1_n_n none h W (constant (F := Ideal) S4096x21 .f32 0x00000000#32))
        (broadcastTo S4096x21 (shapeCast S1x21 b shapeCasts_S1x21_S1x21) broadcasts_S1x21_S4096x21)) p
      = lin (row h p) (mat W) (vec2 b) := by
  funext q
  show addf _ _ (ix2 p q) = _
  rw [addf_apply, mm_43_21, broadcastTo_1b_ab_apply, shapeCast_self]
  rfl

/-! ## 21 → 43 -/

theorem mm_21_43_l0 (i : S4096x43.Idx) (c : dot_S4096x21_S21x43_S4096x43_1_0_0_1_n_n.contr.Idx) : (dot_S4096x21_S21x43_S4096x43_1_0_0_1_n_n.lhsIdx i c 0).val = (i 0).val := by
  unfold DotDims.lhsIdx
  rw [dif_neg (show ¬(0 : Fin S4096x21.rank) ∈ dot_S4096x21_S21x43_S4096x43_1_0_0_1_n_n.lhsBatch by decide), dif_pos (show (0 : Fin S4096x21.rank) ∈ dot_S4096x21_S21x43_S4096x43_1_0_0_1_n_n.lhsNonContracting by decide)]
  rfl
theorem mm_21_43_l1 (i : S4096x43.Idx) (c : dot_S4096x21_S21x43_S4096x43_1_0_0_1_n_n.contr.Idx) : (dot_S4096x21_S21x43_S4096x43_1_0_0_1_n_n.lhsIdx i c 1).val = (c ⟨0, by decide⟩).val :=
  dot_S4096x21_S21x43_S4096x43_1_0_0_1_n_n.lhsIdx_val_of_single rfl i c
theorem mm_21_43_r0 (i : S4096x43.Idx) (c : dot_S4096x21_S21x43_S4096x43_1_0_0_1_n_n.contr.Idx) : (dot_S4096x21_S21x43_S4096x43_1_0_0_1_n_n.rhsIdx i c 0).val = (c ⟨0, by decide⟩).val :=
  dot_S4096x21_S21x43_S4096x43_1_0_0_1_n_n.rhsIdx_val_of_single rfl i c
theorem mm_21_43_r1 (i : S4096x43.Idx) (c : dot_S4096x21_S21x43_S4096x43_1_0_0_1_n_n.contr.Idx) : (dot_S4096x21_S21x43_S4096x43_1_0_0_1_n_n.rhsIdx i c 1).val = (i 1).val := by
  unfold DotDims.rhsIdx
  rw [dif_neg (show ¬(1 : Fin S21x43.rank) ∈ dot_S4096x21_S21x43_S4096x43_1_0_0_1_n_n.rhsBatch by decide), dif_pos (show (1 : Fin S21x43.rank) ∈ dot_S4096x21_S21x43_S4096x43_1_0_0_1_n_n.rhsNonContracting by decide)]
  rfl

/-- The block's matrix product with a weight matrix into a zero accumulator, at entry `(p, q)`: row `p` of the
    block against column `q` of the weights. -/
theorem mm_21_43 (h : FVec Ideal S4096x21 .bf16) (W : FVec Ideal S21x43 .bf16) (p : Fin 4096) (q : Fin 43) :
    matmul dot_S4096x21_S21x43_S4096x43_1_0_0_1_n_n none h W (constant (F := Ideal) S4096x43 .f32 0x00000000#32) (ix2 p q)
      = ∑ k : Fin 21, h (ix2 p k) * W (ix2 k q) := by
  refine (Ideal.matmul_constant_zero_apply dot_S4096x21_S21x43_S4096x43_1_0_0_1_n_n none h W (ix2 p q)).trans ?_
  rw [← Equiv.sum_comp (contrEquiv1 dot_S4096x21_S21x43_S4096x43_1_0_0_1_n_n 21 rfl rfl).symm]
  refine Finset.sum_congr rfl fun k _ => ?_
  have hk := contrEquiv1_symm_val dot_S4096x21_S21x43_S4096x43_1_0_0_1_n_n 21 rfl rfl k
  have el : dot_S4096x21_S21x43_S4096x43_1_0_0_1_n_n.lhsIdx (ix2 p q) ((contrEquiv1 dot_S4096x21_S21x43_S4096x43_1_0_0_1_n_n 21 rfl rfl).symm k) = ix2 p k := funext fun a => Fin.ext (by
    match a with
    | ⟨0, _⟩ => exact mm_21_43_l0 _ _
    | ⟨1, _⟩ => exact (mm_21_43_l1 _ _).trans hk)
  have er : dot_S4096x21_S21x43_S4096x43_1_0_0_1_n_n.rhsIdx (ix2 p q) ((contrEquiv1 dot_S4096x21_S21x43_S4096x43_1_0_0_1_n_n 21 rfl rfl).symm k) = ix2 k q := funext fun a => Fin.ext (by
    match a with
    | ⟨0, _⟩ => exact (mm_21_43_r0 _ _).trans hk
    | ⟨1, _⟩ => exact mm_21_43_r1 _ _)
  rw [el, er]

/-- One dense layer as the body computes it on a block — the (narrowed) block times the (narrowed) weights into a
    zero accumulator, the one-row bias repeated down the rows and added — is, on row `p`, the layer of the
    mathematics on that row. -/
theorem lin_21_43 (h : FVec Ideal S4096x21 .bf16) (W : FVec Ideal S21x43 .bf16) (b : FVec Ideal S1x43 .f32) (p : Fin 4096) :
    row (addf (matmul dot_S4096x21_S21x43_S4096x43_1_0_0_1_n_n none h W (constant (F := Ideal) S4096x43 .f32 0x00000000#32))
        (broadcastTo S4096x43 (shapeCast S1x43 b shapeCasts_S1x43_S1x43) broadcasts_S1x43_S4096x43)) p
      = lin (row h p) (mat W) (vec2 b) := by
  funext q
  show addf _ _ (ix2 p q) = _
  rw [addf_apply, mm_21_43, broadcastTo_1b_ab_apply, shapeCast_self]
  rfl

/-- The same layer followed by the activation. -/
theorem tlin_21_43 (h : FVec Ideal S4096x21 .bf16) (W : FVec Ideal S21x43 .bf16) (b : FVec Ideal S1x43 .f32) (p : Fin 4096) :
    row (tanh (addf (matmul dot_S4096x21_S21x43_S4096x43_1_0_0_1_n_n none h W (constant (F := Ideal) S4096x43 .f32 0x00000000#32))
        (broadcastTo S4096x43 (shapeCast S1x43 b shapeCasts_S1x43_S1x43) broadcasts_S1x43_S4096x43))) p
      = act (lin (row h p) (mat W) (vec2 b)) :=
  (show row (tanh (addf (matmul dot_S4096x21_S21x43_S4096x43_1_0_0_1_n_n none h W (constant (F := Ideal) S4096x43 .f32 0x00000000#32))
        (broadcastTo S4096x43 (shapeCast S1x43 b shapeCasts_S1x43_S1x43) broadcasts_S1x43_S4096x43))) p = act (row (addf (matmul dot_S4096x21_S21x43_S4096x43_1_0_0_1_n_n none h W (constant (F := Ideal) S4096x43 .f32 0x00000000#32))
        (broadcastTo S4096x43 (shapeCast S1x43 b shapeCasts_S1x43_S1x43) broadcasts_S1x43_S4096x43)) p) from rfl).trans (congrArg act (lin_21_43 h W b p))

end Cert.KernelIdeal.Layer

end
-- ==== Proof.KernelBlock.lean ====
/-
  The body's arithmetic on one row of a block.

  The body's one store writes ten dense layers of the loaded block. Its value is printed as four nested terms: the
  first four layers, the next four (given the first four's result), the ninth layer's narrowed weights, and the last
  two layers. Row `p` of each is the corresponding stretch of the network of the mathematics applied to row `p` of
  its input: layer by layer, from the outermost inwards, by the one-layer lemmas.
-/
import proofs.«168321_j72267119723145_1_alg».proof.Proof.Gen.KernelIdeal.Skeleton
import proofs.«168321_j72267119723145_1_alg».proof.Proof.KernelLayer

noncomputable section

namespace Cert.KernelIdeal.Block

open Cert.KernelIdeal Cert.KernelIdeal.Gen Cert.KernelIdeal.Facts₀ Cert.KernelIdeal.Layer Cert.Net Idealize.ShloMosaic Idealize.ShloMosaic.ValueIdx

/-- Layers one to four on row `p`. -/
theorem enc_row (x : FVec Ideal S4096x43 .f32) (W0 : FVec Ideal S43x43 .f32) (b0 : FVec Ideal S1x43 .f32)
    (W1 : FVec Ideal S43x43 .f32) (b1 : FVec Ideal S1x43 .f32) (W2 : FVec Ideal S43x43 .f32) (b2 : FVec Ideal S1x43 .f32)
    (W3 : FVec Ideal S43x43 .f32) (b3 : FVec Ideal S1x43 .f32) (p : Fin 4096) :
    row (k0_pay2 (F := Ideal) x W0 b0 W1 b1 W2 b2 W3 b3) p
      = enc (row x p) (mat W0) (vec2 b0) (mat W1) (vec2 b1) (mat W2) (vec2 b2) (mat W3) (vec2 b3) := by
  unfold k0_pay2
  dsimp only
  rw [tlin_43_43, row_narrow_43, mat_narrow_43_43, tlin_43_43, row_narrow_43, mat_narrow_43_43,
    tlin_43_43, row_narrow_43, mat_narrow_43_43, tlin_43_43, row_narrow_43, mat_narrow_43_43]
  rfl

/-- Layers five to eight on row `p`, from the first four's result `h`; the final narrowing changes nothing. -/
theorem mid_row (h : FVec Ideal S4096x43 .f32) (W4 : FVec Ideal S43x21 .f32) (b4 : FVec Ideal S1x21 .f32)
    (W5 : FVec Ideal S21x43 .f32) (b5 : FVec Ideal S1x43 .f32) (W6 : FVec Ideal S43x43 .f32) (b6 : FVec Ideal S1x43 .f32)
    (W7 : FVec Ideal S43x43 .f32) (b7 : FVec Ideal S1x43 .f32) (p : Fin 4096) :
    row (k0_pay4 (F := Ideal) h W4 b4 W5 b5 W6 b6 W7 b7) p
      = mid (row h p) (mat W4) (vec2 b4) (mat W5) (vec2 b5) (mat W6) (vec2 b6) (mat W7) (vec2 b7) := by
  unfold k0_pay4
  dsimp only
  rw [row_narrow_43, tlin_43_43, row_narrow_43, mat_narrow_43_43, tlin_43_43, row_narrow_43, mat_narrow_43_43,
    tlin_21_43, row_narrow_21, mat_narrow_21_43, lin_43_21, row_narrow_43, mat_narrow_43_21]
  rfl

/-- Layers nine and ten on row `p`, from the first eight's (narrowed) result `h`. -/
theorem dec_row (h : FVec Ideal S4096x43 .bf16) (W8 : FVec Ideal S43x43 .f32) (b8 : FVec Ideal S1x43 .f32)
    (W9 : FVec Ideal S43x43 .f32) (b9 : FVec Ideal S1x43 .f32) (p : Fin 4096) :
    row (k0_pay1 (F := Ideal) (k0_pay3 W8) h b8 W9 b9) p
      = dec (row h p) (mat W8) (vec2 b8) (mat W9) (vec2 b9) := by
  unfold k0_pay1 k0_pay3
  dsimp only
  rw [lin_43_43, row_narrow_43, mat_narrow_43_43, tlin_43_43, mat_narrow_43_43]
  rfl

/-- The whole body on row `p` of a block: the network applied to row `p` of the loaded block. -/
theorem body_row (x : FVec Ideal S4096x43 .f32) (W0 : FVec Ideal S43x43 .f32) (b0 : FVec Ideal S1x43 .f32)
    (W1 : FVec Ideal S43x43 .f32) (b1 : FVec Ideal S1x43 .f32) (W2 : FVec Ideal S43x43 .f32) (b2 : FVec Ideal S1x43 .f32)
    (W3 : FVec Ideal S43x43 .f32) (b3 : FVec Ideal S1x43 .f32) (W4 : FVec Ideal S43x21 .f32) (b4 : FVec Ideal S1x21 .f32)
    (W5 : FVec Ideal S21x43 .f32) (b5 : FVec Ideal S1x43 .f32) (W6 : FVec Ideal S43x43 .f32) (b6 : FVec Ideal S1x43 .f32)
    (W7 : FVec Ideal S43x43 .f32) (b7 : FVec Ideal S1x43 .f32) (W8 : FVec Ideal S43x43 .f32) (b8 : FVec Ideal S1x43 .f32)
    (W9 : FVec Ideal S43x43 .f32) (b9 : FVec Ideal S1x43 .f32) (p : Fin 4096) :
    row (k0_pay1 (F := Ideal) (k0_pay3 W8) (k0_pay4 (k0_pay2 x W0 b0 W1 b1 W2 b2 W3 b3) W4 b4 W5 b5 W6 b6 W7 b7) b8 W9 b9) p
      = net (row x p) (mat W0) (vec2 b0) (mat W1) (vec2 b1) (mat W2) (vec2 b2) (mat W3) (vec2 b3) (mat W4) (vec2 b4)
          (mat W5) (vec2 b5) (mat W6) (vec2 b6) (mat W7) (vec2 b7) (mat W8) (vec2 b8) (mat W9) (vec2 b9) := by
  rw [dec_row, mid_row, enc_row]
  rfl

end Cert.KernelIdeal.Block

end
-- ==== Proof.Whole.lean ====
/-
  The autoencoder on the whole array of samples.

  The input is a matrix of 1048576 samples by 43 features; the ten weight matrices and ten bias vectors are shared by
  all samples. Entry `(r, j)` of the result is entry `j` of the network applied to row `r` of the input. Both
  programs compute this function: the reference on the whole array at once, the kernel 4096 rows at a time.
-/
import proofs.«168321_j72267119723145_1_alg».proof.Proof.Net

noncomputable section

namespace Cert.Net

open Idealize.ShloMosaic Idealize.ShloMosaic.ValueIdx

/-- The result array as one function of the twenty-one argument arrays, index by index. -/
def whole (x : (⟨2, ![1048576, 43]⟩ : Shape).Idx → EReal)
    (W0 : (⟨2, ![43, 43]⟩ : Shape).Idx → EReal)
    (b0 : (⟨1, ![43]⟩ : Shape).Idx → EReal)
    (W1 : (⟨2, ![43, 43]⟩ : Shape).Idx → EReal)
    (b1 : (⟨1, ![43]⟩ : Shape).Idx → EReal)
    (W2 : (⟨2, ![43, 43]⟩ : Shape).Idx → EReal)
    (b2 : (⟨1, ![43]⟩ : Shape).Idx → EReal)
    (W3 : (⟨2, ![43, 43]⟩ : Shape).Idx → EReal)
    (b3 : (⟨1, ![43]⟩ : Shape).Idx → EReal)
    (W4 : (⟨2, ![43, 21]⟩ : Shape).Idx → EReal)
    (b4 : (⟨1, ![21]⟩ : Shape).Idx → EReal)
    (W5 : (⟨2, ![21, 43]⟩ : Shape).Idx → EReal)
    (b5 : (⟨1, ![43]⟩ : Shape).Idx → EReal)
    (W6 : (⟨2, ![43, 43]⟩ : Shape).Idx → EReal)
    (b6 : (⟨1, ![43]⟩ : Shape).Idx → EReal)
    (W7 : (⟨2, ![43, 43]⟩ : Shape).Idx → EReal)
    (b7 : (⟨1, ![43]⟩ : Shape).Idx → EReal)
    (W8 : (⟨2, ![43, 43]⟩ : Shape).Idx → EReal)
    (b8 : (⟨1, ![43]⟩ : Shape).Idx → EReal)
    (W9 : (⟨2, ![43, 43]⟩ : Shape).Idx → EReal)
    (b9 : (⟨1, ![43]⟩ : Shape).Idx → EReal) :
    (⟨2, ![1048576, 43]⟩ : Shape).Idx → EReal :=
  fun i => net (row x (i 0)) (mat W0) (vec b0) (mat W1) (vec b1) (mat W2) (vec b2) (mat W3) (vec b3) (mat W4) (vec b4) (mat W5) (vec b5) (mat W6) (vec b6) (mat W7) (vec b7) (mat W8) (vec b8) (mat W9) (vec b9) (i 1)

/-- At the entry `(r, j)` built from its coordinates. -/
theorem whole_apply (x : (⟨2, ![1048576, 43]⟩ : Shape).Idx → EReal)
    (W0 : (⟨2, ![43, 43]⟩ : Shape).Idx → EReal)
    (b0 : (⟨1, ![43]⟩ : Shape).Idx → EReal)
    (W1 : (⟨2, ![43, 43]⟩ : Shape).Idx → EReal)
    (b1 : (⟨1, ![43]⟩ : Shape).Idx → EReal)
    (W2 : (⟨2, ![43, 43]⟩ : Shape).Idx → EReal)
    (b2 : (⟨1, ![43]⟩ : Shape).Idx → EReal)
    (W3 : (⟨2, ![43, 43]⟩ : Shape).Idx → EReal)
    (b3 : (⟨1, ![43]⟩ : Shape).Idx → EReal)
    (W4 : (⟨2, ![43, 21]⟩ : Shape).Idx → EReal)
    (b4 : (⟨1, ![21]⟩ : Shape).Idx → EReal)
    (W5 : (⟨2, ![21, 43]⟩ : Shape).Idx → EReal)
    (b5 : (⟨1, ![43]⟩ : Shape).Idx → EReal)
    (W6 : (⟨2, ![43, 43]⟩ : Shape).Idx → EReal)
    (b6 : (⟨1, ![43]⟩ : Shape).Idx → EReal)
    (W7 : (⟨2, ![43, 43]⟩ : Shape).Idx → EReal)
    (b7 : (⟨1, ![43]⟩ : Shape).Idx → EReal)
    (W8 : (⟨2, ![43, 43]⟩ : Shape).Idx → EReal)
    (b8 : (⟨1, ![43]⟩ : Shape).Idx → EReal)
    (W9 : (⟨2, ![43, 43]⟩ : Shape).Idx → EReal)
    (b9 : (⟨1, ![43]⟩ : Shape).Idx → EReal)
    (r : Fin 1048576) (j : Fin 43) :
    whole x W0 b0 W1 b1 W2 b2 W3 b3 W4 b4 W5 b5 W6 b6 W7 b7 W8 b8 W9 b9 (ix2 r j)
      = net (row x r) (mat W0) (vec b0) (mat W1) (vec b1) (mat W2) (vec b2) (mat W3) (vec b3) (mat W4) (vec b4) (mat W5) (vec b5) (mat W6) (vec b6) (mat W7) (vec b7) (mat W8) (vec b8) (mat W9) (vec b9) j := rfl

end Cert.Net

end
-- ==== Proof.KernelArray.lean ====
/-
  From blocks to the array: the kernel computes the network on the whole array.

  The call runs 256 grid points. Point `t` is handed rows `4096·t … 4096·t + 4095` of the input (all 43 columns),
  the ten weight matrices whole, and the ten biases whole, each as the one-row matrix the host reshaped it into; it
  writes back rows `4096·t … 4096·t + 4095` of the result. Row `p` of what it writes is the network applied to row
  `p` of its input block, that is to row `4096·t + p` of the input: point `t` writes block `t` of `Net.whole` of
  the arguments. The 256 blocks tile the result (row `r` lies in block `r / 4096`), so after the run the result
  array is `Net.whole` of the arguments.
-/
import proofs.«168321_j72267119723145_1_alg».proof.Proof.Gen.KernelIdeal.Value
import proofs.«168321_j72267119723145_1_alg».proof.Proof.KernelBlock
import proofs.«168321_j72267119723145_1_alg».proof.Proof.Whole
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Facts₀ Cert.KernelIdeal.Block Cert.Net

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits, decided over the 256 points

The input and the output move down one block of rows per point; every other window stays on its one block. -/

theorem idx_0 : ∀ t : Fin cfg0.N, win0_0.index t (0 : Fin 2) = t.val ∧ win0_0.index t (1 : Fin 2) = 0 :=
  (by decide +kernel : ∀ t : Fin grid0.N, _)
theorem idx_21 : ∀ t : Fin cfg0.N, win0_21.index t (0 : Fin 2) = t.val ∧ win0_21.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)

/-- The row of the whole array that row `p` of point `t`'s block is. -/
def rowOf (t : Fin cfg0.N) (p : Fin 4096) : Fin 1048576 :=
  ⟨t.val * 4096 + p.val, by have := t.isLt; have hN : cfg0.N = 256 := N_0; omega⟩

/-! ## The input blocks, read off the arguments -/

/-- Row `p` of point `t`'s input block is row `4096·t + p` of the input. -/
theorem x_row (c : Dev nD) (t : Fin cfg0.N) (p : Fin 4096) :
    row (iblk m c 0 t : FVec Ideal S4096x43 .f32) p = row (m ((c : Thread nD τ).loc main_arg0)) (rowOf t p) := by
  funext k
  show (iblk m c 0 t : FVec Ideal S4096x43 .f32) (ix2 p k) = ((m ((c : Thread nD τ).loc main_arg0)) : S1048576x43.Idx → EReal) (ix2 (rowOf t p) k)
  unfold iblk
  rw [View.read_apply]
  show V m c main_arg0 _ = _
  rw [V_main_arg0]
  obtain ⟨e0, e1⟩ := idx_0 t
  refine congrArg _ (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 43 + 1 * k.val = k.val; rw [e1]; omega

/-- Layer 1's weights: every point's block of window 1 is the whole matrix. -/
theorem W0_mat (c : Dev nD) (t : Fin cfg0.N) :
    mat (iblk m c 1 t : FVec Ideal S43x43 .f32) = mat (m ((c : Thread nD τ).loc main_arg1)) := by
  funext k j
  show (iblk m c 1 t : FVec Ideal S43x43 .f32) (ix2 k j) = ((m ((c : Thread nD τ).loc main_arg1)) : S43x43.Idx → EReal) (ix2 k j)
  unfold iblk
  rw [View.read_apply]
  show V m c main_arg1 _ = _
  rw [V_main_arg1]
  obtain ⟨e0, e1⟩ := idx_1 t
  refine congrArg _ (funext fun a => Fin.ext ?_)
  match a with
  | ⟨0, _⟩ => show win0_1.index t (0 : Fin 2) * 43 + 1 * k.val = k.val; rw [e0]; omega
  | ⟨1, _⟩ => show win0_1.index t (1 : Fin 2) * 43 + 1 * j.val = j.val; rw [e1]; omega

/-- Layer 1's bias reaches the region as a one-row matrix: the host reshapes the vector before the call. -/
theorem V_b0 (c : Dev nD) : (V m c main_v0 : S1x43.Idx → EReal) = shapeCast S1x43 (m ((c : Thread nD τ).loc main_arg2)) Facts₀.shapeCasts_S43_S1x43 := by
  dsimp only [Gen.V, Gen.hostOps0]
  after_results
  rfl

/-- Every point's block of window 2 is that whole one-row matrix, whose row is the bias vector. -/
theorem b0_vec (c : Dev nD) (t : Fin cfg0.N) :
    vec2 (iblk m c 2 t : FVec Ideal S1x43 .f32) = vec (m ((c : Thread nD τ).loc main_arg2)) := by
  funext j
  show (iblk m c 2 t : FVec Ideal S1x43 .f32) (ix2 (0 : Fin 1) j) = ((m ((c : Thread nD τ).loc main_arg2)) : S43.Idx → EReal) (ix1 j)
  unfold iblk
  rw [View.read_apply]
  show (V m c main_v0 : S1x43.Idx → EReal) _ = _
  rw [V_b0]
  obtain ⟨e0, e1⟩ := idx_2 t
  refine (congrArg _ (funext fun a => Fin.ext ?_)).trans (shapeCast_a_1a_apply _ Facts₀.shapeCasts_S43_S1x43 (0 : Fin 1) j)
  match a with
  | ⟨0, _⟩ => show win0_2.index t (0 : Fin 2) * 1 + 1 * 0 = 0; rw [e0]
  | ⟨1, _⟩ => show win0_2.index t (1 : Fin 2) * 43 + 1 * j.val = j.val; rw [e1]; omega

/-- Layer 2's weights: every point's block of window 3 is the whole matrix. -/
theorem W1_mat (c : Dev nD) (t : Fin cfg0.N) :
    mat (iblk m c 3 t : FVec Ideal S43x43 .f32) = mat (m ((c : Thread nD τ).loc main_arg3)) := by
  funext k j
  show (iblk m c 3 t : FVec Ideal S43x43 .f32) (ix2 k j) = ((m ((c : Thread nD τ).loc main_arg3)) : S43x43.Idx → EReal) (ix2 k j)
  unfold iblk
  rw [View.read_apply]
  show V m c main_arg3 _ = _
  rw [V_main_arg3]
  obtain ⟨e0, e1⟩ := idx_3 t
  refine congrArg _ (funext fun a => Fin.ext ?_)
  match a with
  | ⟨0, _⟩ => show win0_3.index t (0 : Fin 2) * 43 + 1 * k.val = k.val; rw [e0]; omega
  | ⟨1, _⟩ => show win0_3.index t (1 : Fin 2) * 43 + 1 * j.val = j.val; rw [e1]; omega

/-- Layer 2's bias reaches the region as a one-row matrix: the host reshapes the vector before the call. -/
theorem V_b1 (c : Dev nD) : (V m c main_v1 : S1x43.Idx → EReal) = shapeCast S1x43 (m ((c : Thread nD τ).loc main_arg4)) Facts₀.shapeCasts_S43_S1x43 := by
  dsimp only [Gen.V, Gen.hostOps0]
  after_results
  rfl

/-- Every point's block of window 4 is that whole one-row matrix, whose row is the bias vector. -/
theorem b1_vec (c : Dev nD) (t : Fin cfg0.N) :
    vec2 (iblk m c 4 t : FVec Ideal S1x43 .f32) = vec (m ((c : Thread nD τ).loc main_arg4)) := by
  funext j
  show (iblk m c 4 t : FVec Ideal S1x43 .f32) (ix2 (0 : Fin 1) j) = ((m ((c : Thread nD τ).loc main_arg4)) : S43.Idx → EReal) (ix1 j)
  unfold iblk
  rw [View.read_apply]
  show (V m c main_v1 : S1x43.Idx → EReal) _ = _
  rw [V_b1]
  obtain ⟨e0, e1⟩ := idx_4 t
  refine (congrArg _ (funext fun a => Fin.ext ?_)).trans (shapeCast_a_1a_apply _ Facts₀.shapeCasts_S43_S1x43 (0 : Fin 1) j)
  match a with
  | ⟨0, _⟩ => show win0_4.index t (0 : Fin 2) * 1 + 1 * 0 = 0; rw [e0]
  | ⟨1, _⟩ => show win0_4.index t (1 : Fin 2) * 43 + 1 * j.val = j.val; rw [e1]; omega

/-- Layer 3's weights: every point's block of window 5 is the whole matrix. -/
theorem W2_mat (c : Dev nD) (t : Fin cfg0.N) :
    mat (iblk m c 5 t : FVec Ideal S43x43 .f32) = mat (m ((c : Thread nD τ).loc main_arg5)) := by
  funext k j
  show (iblk m c 5 t : FVec Ideal S43x43 .f32) (ix2 k j) = ((m ((c : Thread nD τ).loc main_arg5)) : S43x43.Idx → EReal) (ix2 k j)
  unfold iblk
  rw [View.read_apply]
  show V m c main_arg5 _ = _
  rw [V_main_arg5]
  obtain ⟨e0, e1⟩ := idx_5 t
  refine congrArg _ (funext fun a => Fin.ext ?_)
  match a with
  | ⟨0, _⟩ => show win0_5.index t (0 : Fin 2) * 43 + 1 * k.val = k.val; rw [e0]; omega
  | ⟨1, _⟩ => show win0_5.index t (1 : Fin 2) * 43 + 1 * j.val = j.val; rw [e1]; omega

/-- Layer 3's bias reaches the region as a one-row matrix: the host reshapes the vector before the call. -/
theorem V_b2 (c : Dev nD) : (V m c main_v2 : S1x43.Idx → EReal) = shapeCast S1x43 (m ((c : Thread nD τ).loc main_arg6)) Facts₀.shapeCasts_S43_S1x43 := by
  dsimp only [Gen.V, Gen.hostOps0]
  after_results
  rfl

/-- Every point's block of window 6 is that whole one-row matrix, whose row is the bias vector. -/
theorem b2_vec (c : Dev nD) (t : Fin cfg0.N) :
    vec2 (iblk m c 6 t : FVec Ideal S1x43 .f32) = vec (m ((c : Thread nD τ).loc main_arg6)) := by
  funext j
  show (iblk m c 6 t : FVec Ideal S1x43 .f32) (ix2 (0 : Fin 1) j) = ((m ((c : Thread nD τ).loc main_arg6)) : S43.Idx → EReal) (ix1 j)
  unfold iblk
  rw [View.read_apply]
  show (V m c main_v2 : S1x43.Idx → EReal) _ = _
  rw [V_b2]
  obtain ⟨e0, e1⟩ := idx_6 t
  refine (congrArg _ (funext fun a => Fin.ext ?_)).trans (shapeCast_a_1a_apply _ Facts₀.shapeCasts_S43_S1x43 (0 : Fin 1) j)
  match a with
  | ⟨0, _⟩ => show win0_6.index t (0 : Fin 2) * 1 + 1 * 0 = 0; rw [e0]
  | ⟨1, _⟩ => show win0_6.index t (1 : Fin 2) * 43 + 1 * j.val = j.val; rw [e1]; omega

/-- Layer 4's weights: every point's block of window 7 is the whole matrix. -/
theorem W3_mat (c : Dev nD) (t : Fin cfg0.N) :
    mat (iblk m c 7 t : FVec Ideal S43x43 .f32) = mat (m ((c : Thread nD τ).loc main_arg7)) := by
  funext k j
  show (iblk m c 7 t : FVec Ideal S43x43 .f32) (ix2 k j) = ((m ((c : Thread nD τ).loc main_arg7)) : S43x43.Idx → EReal) (ix2 k j)
  unfold iblk
  rw [View.read_apply]
  show V m c main_arg7 _ = _
  rw [V_main_arg7]
  obtain ⟨e0, e1⟩ := idx_7 t
  refine congrArg _ (funext fun a => Fin.ext ?_)
  match a with
  | ⟨0, _⟩ => show win0_7.index t (0 : Fin 2) * 43 + 1 * k.val = k.val; rw [e0]; omega
  | ⟨1, _⟩ => show win0_7.index t (1 : Fin 2) * 43 + 1 * j.val = j.val; rw [e1]; omega

/-- Layer 4's bias reaches the region as a one-row matrix: the host reshapes the vector before the call. -/
theorem V_b3 (c : Dev nD) : (V m c main_v3 : S1x43.Idx → EReal) = shapeCast S1x43 (m ((c : Thread nD τ).loc main_arg8)) Facts₀.shapeCasts_S43_S1x43 := by
  dsimp only [Gen.V, Gen.hostOps0]
  after_results
  rfl

/-- Every point's block of window 8 is that whole one-row matrix, whose row is the bias vector. -/
theorem b3_vec (c : Dev nD) (t : Fin cfg0.N) :
    vec2 (iblk m c 8 t : FVec Ideal S1x43 .f32) = vec (m ((c : Thread nD τ).loc main_arg8)) := by
  funext j
  show (iblk m c 8 t : FVec Ideal S1x43 .f32) (ix2 (0 : Fin 1) j) = ((m ((c : Thread nD τ).loc main_arg8)) : S43.Idx → EReal) (ix1 j)
  unfold iblk
  rw [View.read_apply]
  show (V m c main_v3 : S1x43.Idx → EReal) _ = _
  rw [V_b3]
  obtain ⟨e0, e1⟩ := idx_8 t
  refine (congrArg _ (funext fun a => Fin.ext ?_)).trans (shapeCast_a_1a_apply _ Facts₀.shapeCasts_S43_S1x43 (0 : Fin 1) j)
  match a with
  | ⟨0, _⟩ => show win0_8.index t (0 : Fin 2) * 1 + 1 * 0 = 0; rw [e0]
  | ⟨1, _⟩ => show win0_8.index t (1 : Fin 2) * 43 + 1 * j.val = j.val; rw [e1]; omega

/-- Layer 5's weights: every point's block of window 9 is the whole matrix. -/
theorem W4_mat (c : Dev nD) (t : Fin cfg0.N) :
    mat (iblk m c 9 t : FVec Ideal S43x21 .f32) = mat (m ((c : Thread nD τ).loc main_arg9)) := by
  funext k j
  show (iblk m c 9 t : FVec Ideal S43x21 .f32) (ix2 k j) = ((m ((c : Thread nD τ).loc main_arg9)) : S43x21.Idx → EReal) (ix2 k j)
  unfold iblk
  rw [View.read_apply]
  show V m c main_arg9 _ = _
  rw [V_main_arg9]
  obtain ⟨e0, e1⟩ := idx_9 t
  refine congrArg _ (funext fun a => Fin.ext ?_)
  match a with
  | ⟨0, _⟩ => show win0_9.index t (0 : Fin 2) * 43 + 1 * k.val = k.val; rw [e0]; omega
  | ⟨1, _⟩ => show win0_9.index t (1 : Fin 2) * 21 + 1 * j.val = j.val; rw [e1]; omega

/-- Layer 5's bias reaches the region as a one-row matrix: the host reshapes the vector before the call. -/
theorem V_b4 (c : Dev nD) : (V m c main_v4 : S1x21.Idx → EReal) = shapeCast S1x21 (m ((c : Thread nD τ).loc main_arg10)) Facts₀.shapeCasts_S21_S1x21 := by
  dsimp only [Gen.V, Gen.hostOps0]
  after_results
  rfl

/-- Every point's block of window 10 is that whole one-row matrix, whose row is the bias vector. -/
theorem b4_vec (c : Dev nD) (t : Fin cfg0.N) :
    vec2 (iblk m c 10 t : FVec Ideal S1x21 .f32) = vec (m ((c : Thread nD τ).loc main_arg10)) := by
  funext j
  show (iblk m c 10 t : FVec Ideal S1x21 .f32) (ix2 (0 : Fin 1) j) = ((m ((c : Thread nD τ).loc main_arg10)) : S21.Idx → EReal) (ix1 j)
  unfold iblk
  rw [View.read_apply]
  show (V m c main_v4 : S1x21.Idx → EReal) _ = _
  rw [V_b4]
  obtain ⟨e0, e1⟩ := idx_10 t
  refine (congrArg _ (funext fun a => Fin.ext ?_)).trans (shapeCast_a_1a_apply _ Facts₀.shapeCasts_S21_S1x21 (0 : Fin 1) j)
  match a with
  | ⟨0, _⟩ => show win0_10.index t (0 : Fin 2) * 1 + 1 * 0 = 0; rw [e0]
  | ⟨1, _⟩ => show win0_10.index t (1 : Fin 2) * 21 + 1 * j.val = j.val; rw [e1]; omega

/-- Layer 6's weights: every point's block of window 11 is the whole matrix. -/
theorem W5_mat (c : Dev nD) (t : Fin cfg0.N) :
    mat (iblk m c 11 t : FVec Ideal S21x43 .f32) = mat (m ((c : Thread nD τ).loc main_arg11)) := by
  funext k j
  show (iblk m c 11 t : FVec Ideal S21x43 .f32) (ix2 k j) = ((m ((c : Thread nD τ).loc main_arg11)) : S21x43.Idx → EReal) (ix2 k j)
  unfold iblk
  rw [View.read_apply]
  show V m c main_arg11 _ = _
  rw [V_main_arg11]
  obtain ⟨e0, e1⟩ := idx_11 t
  refine congrArg _ (funext fun a => Fin.ext ?_)
  match a with
  | ⟨0, _⟩ => show win0_11.index t (0 : Fin 2) * 21 + 1 * k.val = k.val; rw [e0]; omega
  | ⟨1, _⟩ => show win0_11.index t (1 : Fin 2) * 43 + 1 * j.val = j.val; rw [e1]; omega

/-- Layer 6's bias reaches the region as a one-row matrix: the host reshapes the vector before the call. -/
theorem V_b5 (c : Dev nD) : (V m c main_v5 : S1x43.Idx → EReal) = shapeCast S1x43 (m ((c : Thread nD τ).loc main_arg12)) Facts₀.shapeCasts_S43_S1x43 := by
  dsimp only [Gen.V, Gen.hostOps0]
  after_results
  rfl

/-- Every point's block of window 12 is that whole one-row matrix, whose row is the bias vector. -/
theorem b5_vec (c : Dev nD) (t : Fin cfg0.N) :
    vec2 (iblk m c 12 t : FVec Ideal S1x43 .f32) = vec (m ((c : Thread nD τ).loc main_arg12)) := by
  funext j
  show (iblk m c 12 t : FVec Ideal S1x43 .f32) (ix2 (0 : Fin 1) j) = ((m ((c : Thread nD τ).loc main_arg12)) : S43.Idx → EReal) (ix1 j)
  unfold iblk
  rw [View.read_apply]
  show (V m c main_v5 : S1x43.Idx → EReal) _ = _
  rw [V_b5]
  obtain ⟨e0, e1⟩ := idx_12 t
  refine (congrArg _ (funext fun a => Fin.ext ?_)).trans (shapeCast_a_1a_apply _ Facts₀.shapeCasts_S43_S1x43 (0 : Fin 1) j)
  match a with
  | ⟨0, _⟩ => show win0_12.index t (0 : Fin 2) * 1 + 1 * 0 = 0; rw [e0]
  | ⟨1, _⟩ => show win0_12.index t (1 : Fin 2) * 43 + 1 * j.val = j.val; rw [e1]; omega

/-- Layer 7's weights: every point's block of window 13 is the whole matrix. -/
theorem W6_mat (c : Dev nD) (t : Fin cfg0.N) :
    mat (iblk m c 13 t : FVec Ideal S43x43 .f32) = mat (m ((c : Thread nD τ).loc main_arg13)) := by
  funext k j
  show (iblk m c 13 t : FVec Ideal S43x43 .f32) (ix2 k j) = ((m ((c : Thread nD τ).loc main_arg13)) : S43x43.Idx → EReal) (ix2 k j)
  unfold iblk
  rw [View.read_apply]
  show V m c main_arg13 _ = _
  rw [V_main_arg13]
  obtain ⟨e0, e1⟩ := idx_13 t
  refine congrArg _ (funext fun a => Fin.ext ?_)
  match a with
  | ⟨0, _⟩ => show win0_13.index t (0 : Fin 2) * 43 + 1 * k.val = k.val; rw [e0]; omega
  | ⟨1, _⟩ => show win0_13.index t (1 : Fin 2) * 43 + 1 * j.val = j.val; rw [e1]; omega

/-- Layer 7's bias reaches the region as a one-row matrix: the host reshapes the vector before the call. -/
theorem V_b6 (c : Dev nD) : (V m c main_v6 : S1x43.Idx → EReal) = shapeCast S1x43 (m ((c : Thread nD τ).loc main_arg14)) Facts₀.shapeCasts_S43_S1x43 := by
  dsimp only [Gen.V, Gen.hostOps0]
  after_results
  rfl

/-- Every point's block of window 14 is that whole one-row matrix, whose row is the bias vector. -/
theorem b6_vec (c : Dev nD) (t : Fin cfg0.N) :
    vec2 (iblk m c 14 t : FVec Ideal S1x43 .f32) = vec (m ((c : Thread nD τ).loc main_arg14)) := by
  funext j
  show (iblk m c 14 t : FVec Ideal S1x43 .f32) (ix2 (0 : Fin 1) j) = ((m ((c : Thread nD τ).loc main_arg14)) : S43.Idx → EReal) (ix1 j)
  unfold iblk
  rw [View.read_apply]
  show (V m c main_v6 : S1x43.Idx → EReal) _ = _
  rw [V_b6]
  obtain ⟨e0, e1⟩ := idx_14 t
  refine (congrArg _ (funext fun a => Fin.ext ?_)).trans (shapeCast_a_1a_apply _ Facts₀.shapeCasts_S43_S1x43 (0 : Fin 1) j)
  match a with
  | ⟨0, _⟩ => show win0_14.index t (0 : Fin 2) * 1 + 1 * 0 = 0; rw [e0]
  | ⟨1, _⟩ => show win0_14.index t (1 : Fin 2) * 43 + 1 * j.val = j.val; rw [e1]; omega

/-- Layer 8's weights: every point's block of window 15 is the whole matrix. -/
theorem W7_mat (c : Dev nD) (t : Fin cfg0.N) :
    mat (iblk m c 15 t : FVec Ideal S43x43 .f32) = mat (m ((c : Thread nD τ).loc main_arg15)) := by
  funext k j
  show (iblk m c 15 t : FVec Ideal S43x43 .f32) (ix2 k j) = ((m ((c : Thread nD τ).loc main_arg15)) : S43x43.Idx → EReal) (ix2 k j)
  unfold iblk
  rw [View.read_apply]
  show V m c main_arg15 _ = _
  rw [V_main_arg15]
  obtain ⟨e0, e1⟩ := idx_15 t
  refine congrArg _ (funext fun a => Fin.ext ?_)
  match a with
  | ⟨0, _⟩ => show win0_15.index t (0 : Fin 2) * 43 + 1 * k.val = k.val; rw [e0]; omega
  | ⟨1, _⟩ => show win0_15.index t (1 : Fin 2) * 43 + 1 * j.val = j.val; rw [e1]; omega

/-- Layer 8's bias reaches the region as a one-row matrix: the host reshapes the vector before the call. -/
theorem V_b7 (c : Dev nD) : (V m c main_v7 : S1x43.Idx → EReal) = shapeCast S1x43 (m ((c : Thread nD τ).loc main_arg16)) Facts₀.shapeCasts_S43_S1x43 := by
  dsimp only [Gen.V, Gen.hostOps0]
  after_results
  rfl

/-- Every point's block of window 16 is that whole one-row matrix, whose row is the bias vector. -/
theorem b7_vec (c : Dev nD) (t : Fin cfg0.N) :
    vec2 (iblk m c 16 t : FVec Ideal S1x43 .f32) = vec (m ((c : Thread nD τ).loc main_arg16)) := by
  funext j
  show (iblk m c 16 t : FVec Ideal S1x43 .f32) (ix2 (0 : Fin 1) j) = ((m ((c : Thread nD τ).loc main_arg16)) : S43.Idx → EReal) (ix1 j)
  unfold iblk
  rw [View.read_apply]
  show (V m c main_v7 : S1x43.Idx → EReal) _ = _
  rw [V_b7]
  obtain ⟨e0, e1⟩ := idx_16 t
  refine (congrArg _ (funext fun a => Fin.ext ?_)).trans (shapeCast_a_1a_apply _ Facts₀.shapeCasts_S43_S1x43 (0 : Fin 1) j)
  match a with
  | ⟨0, _⟩ => show win0_16.index t (0 : Fin 2) * 1 + 1 * 0 = 0; rw [e0]
  | ⟨1, _⟩ => show win0_16.index t (1 : Fin 2) * 43 + 1 * j.val = j.val; rw [e1]; omega

/-- Layer 9's weights: every point's block of window 17 is the whole matrix. -/
theorem W8_mat (c : Dev nD) (t : Fin cfg0.N) :
    mat (iblk m c 17 t : FVec Ideal S43x43 .f32) = mat (m ((c : Thread nD τ).loc main_arg17)) := by
  funext k j
  show (iblk m c 17 t : FVec Ideal S43x43 .f32) (ix2 k j) = ((m ((c : Thread nD τ).loc main_arg17)) : S43x43.Idx → EReal) (ix2 k j)
  unfold iblk
  rw [View.read_apply]
  show V m c main_arg17 _ = _
  rw [V_main_arg17]
  obtain ⟨e0, e1⟩ := idx_17 t
  refine congrArg _ (funext fun a => Fin.ext ?_)
  match a with
  | ⟨0, _⟩ => show win0_17.index t (0 : Fin 2) * 43 + 1 * k.val = k.val; rw [e0]; omega
  | ⟨1, _⟩ => show win0_17.index t (1 : Fin 2) * 43 + 1 * j.val = j.val; rw [e1]; omega

/-- Layer 9's bias reaches the region as a one-row matrix: the host reshapes the vector before the call. -/
theorem V_b8 (c : Dev nD) : (V m c main_v8 : S1x43.Idx → EReal) = shapeCast S1x43 (m ((c : Thread nD τ).loc main_arg18)) Facts₀.shapeCasts_S43_S1x43 := by
  dsimp only [Gen.V, Gen.hostOps0]
  after_results
  rfl

/-- Every point's block of window 18 is that whole one-row matrix, whose row is the bias vector. -/
theorem b8_vec (c : Dev nD) (t : Fin cfg0.N) :
    vec2 (iblk m c 18 t : FVec Ideal S1x43 .f32) = vec (m ((c : Thread nD τ).loc main_arg18)) := by
  funext j
  show (iblk m c 18 t : FVec Ideal S1x43 .f32) (ix2 (0 : Fin 1) j) = ((m ((c : Thread nD τ).loc main_arg18)) : S43.Idx → EReal) (ix1 j)
  unfold iblk
  rw [View.read_apply]
  show (V m c main_v8 : S1x43.Idx → EReal) _ = _
  rw [V_b8]
  obtain ⟨e0, e1⟩ := idx_18 t
  refine (congrArg _ (funext fun a => Fin.ext ?_)).trans (shapeCast_a_1a_apply _ Facts₀.shapeCasts_S43_S1x43 (0 : Fin 1) j)
  match a with
  | ⟨0, _⟩ => show win0_18.index t (0 : Fin 2) * 1 + 1 * 0 = 0; rw [e0]
  | ⟨1, _⟩ => show win0_18.index t (1 : Fin 2) * 43 + 1 * j.val = j.val; rw [e1]; omega

/-- Layer 10's weights: every point's block of window 19 is the whole matrix. -/
theorem W9_mat (c : Dev nD) (t : Fin cfg0.N) :
    mat (iblk m c 19 t : FVec Ideal S43x43 .f32) = mat (m ((c : Thread nD τ).loc main_arg19)) := by
  funext k j
  show (iblk m c 19 t : FVec Ideal S43x43 .f32) (ix2 k j) = ((m ((c : Thread nD τ).loc main_arg19)) : S43x43.Idx → EReal) (ix2 k j)
  unfold iblk
  rw [View.read_apply]
  show V m c main_arg19 _ = _
  rw [V_main_arg19]
  obtain ⟨e0, e1⟩ := idx_19 t
  refine congrArg _ (funext fun a => Fin.ext ?_)
  match a with
  | ⟨0, _⟩ => show win0_19.index t (0 : Fin 2) * 43 + 1 * k.val = k.val; rw [e0]; omega
  | ⟨1, _⟩ => show win0_19.index t (1 : Fin 2) * 43 + 1 * j.val = j.val; rw [e1]; omega

/-- Layer 10's bias reaches the region as a one-row matrix: the host reshapes the vector before the call. -/
theorem V_b9 (c : Dev nD) : (V m c main_v9 : S1x43.Idx → EReal) = shapeCast S1x43 (m ((c : Thread nD τ).loc main_arg20)) Facts₀.shapeCasts_S43_S1x43 := by
  dsimp only [Gen.V, Gen.hostOps0]
  after_results
  rfl

/-- Every point's block of window 20 is that whole one-row matrix, whose row is the bias vector. -/
theorem b9_vec (c : Dev nD) (t : Fin cfg0.N) :
    vec2 (iblk m c 20 t : FVec Ideal S1x43 .f32) = vec (m ((c : Thread nD τ).loc main_arg20)) := by
  funext j
  show (iblk m c 20 t : FVec Ideal S1x43 .f32) (ix2 (0 : Fin 1) j) = ((m ((c : Thread nD τ).loc main_arg20)) : S43.Idx → EReal) (ix1 j)
  unfold iblk
  rw [View.read_apply]
  show (V m c main_v9 : S1x43.Idx → EReal) _ = _
  rw [V_b9]
  obtain ⟨e0, e1⟩ := idx_20 t
  refine (congrArg _ (funext fun a => Fin.ext ?_)).trans (shapeCast_a_1a_apply _ Facts₀.shapeCasts_S43_S1x43 (0 : Fin 1) j)
  match a with
  | ⟨0, _⟩ => show win0_20.index t (0 : Fin 2) * 1 + 1 * 0 = 0; rw [e0]
  | ⟨1, _⟩ => show win0_20.index t (1 : Fin 2) * 43 + 1 * j.val = j.val; rw [e1]; omega

/-! ## What each point writes back -/

/-- The network on the whole array, of the arguments as launched. -/
abbrev result (c : Dev nD) : S1048576x43.Idx → EReal :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- Entry `(p, q)` of point `t`'s output block sits at row `4096·t + p`, column `q` of the result. -/
theorem out_emb (t : Fin cfg0.N) (p : Fin 4096) (q : Fin 43) :
    ((cfg0.win 21).blk t).view.emb (ix2 p q : S4096x43.Idx) = (ix2 (rowOf t p) q : S1048576x43.Idx) := by
  obtain ⟨e0, e1⟩ := idx_21 t
  funext a
  apply Fin.ext
  match a with
  | ⟨0, _⟩ => show win0_21.index t (0 : Fin 2) * 4096 + 1 * p.val = t.val * 4096 + p.val; rw [e0]; omega
  | ⟨1, _⟩ => show win0_21.index t (1 : Fin 2) * 43 + 1 * q.val = q.val; rw [e1]; omega

/-- Point `t` writes back block `t` of the network on the whole array. -/
theorem flushed_eq (c : Dev nD) (t : Fin cfg0.N) :
    (dats m 0 c).flushed 21 t = ((cfg0.win 21).blk t).view.read (Elt Ideal) (result m c) := by
  rw [flushed21]
  unfold out0_21
  rw [View.canon_unit_zero hz]
  simp only [View.ld_unit_zero (S := S4096x43) hz, View.ld_unit_zero (S := S43x43) hz, View.ld_unit_zero (S := S1x43) hz,
    View.ld_unit_zero (S := S43x21) hz, View.ld_unit_zero (S := S1x21) hz, View.ld_unit_zero (S := S21x43) hz]
  funext y
  obtain ⟨p, q, rfl⟩ : ∃ (p : Fin 4096) (q : Fin 43), y = ix2 p q := ⟨y 0, y 1, eq_ix2 y⟩
  show row (k0_pay1 (F := Ideal) (k0_pay3 (iblk m c 17 t)) (k0_pay4 (k0_pay2 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 14 t) (iblk m c 15 t) (iblk m c 16 t)) (iblk m c 18 t) (iblk m c 19 t) (iblk m c 20 t)) p q = result m c (((cfg0.win 21).blk t).view.emb (ix2 p q : S4096x43.Idx))
  rw [out_emb, body_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p]
  rw [x_row m c t p, W0_mat m c t, b0_vec m c t, W1_mat m c t, b1_vec m c t, W2_mat m c t, b2_vec m c t, W3_mat m c t, b3_vec m c t, W4_mat m c t, b4_vec m c t, W5_mat m c t, b5_vec m c t, W6_mat m c t, b6_vec m c t, W7_mat m c t, b7_vec m c t, W8_mat m c t, b8_vec m c t, W9_mat m c t, b9_vec m c t]
  rfl

/-! ## The blocks tile the result -/

/-- An index of the result lies in point `t`'s block iff each coordinate lies in the block's range on its axis. -/
theorem mem_blk (t : Fin cfg0.N) (i : S1048576x43.Idx) :
    i ∈ ((cfg0.win 21).blk t).view.set ↔ ∀ a : Fin 2, win0_21.index t a * S4096x43.size a ≤ (i a).val ∧ (i a).val < win0_21.index t a * S4096x43.size a + S4096x43.size a := by
  show i ∈ ((View.whole main_v10).slice (win0_21.rect t)).set ↔ _
  rw [View.set_slice_whole, Rect.mem_set_unit]
  exact Iff.rfl

/-- Row `r` of the result lies in the block of point `r / 4096`. -/
theorem cover (i : S1048576x43.Idx) : ∃ t : Fin cfg0.N, (cfg0.win 21).flush t = true ∧ i ∈ ((cfg0.win 21).blk t).view.set := by
  have hi0 : (i 0).val < 1048576 := (i 0).isLt
  have hi1 : (i 1).val < 43 := (i 1).isLt
  have hN : cfg0.N = 256 := N_0
  obtain ⟨t, ht⟩ : ∃ t : Fin cfg0.N, t.val = (i 0).val / 4096 := ⟨⟨(i 0).val / 4096, by omega⟩, rfl⟩
  obtain ⟨e0, e1⟩ := idx_21 t
  refine ⟨t, flush0_21 t, ?_⟩
  rw [mem_blk]
  intro a
  match a with
  | ⟨0, _⟩ => show win0_21.index t (0 : Fin 2) * 4096 ≤ (i 0).val ∧ (i 0).val < win0_21.index t (0 : Fin 2) * 4096 + 4096; rw [e0]; omega
  | ⟨1, _⟩ => show win0_21.index t (1 : Fin 2) * 43 ≤ (i 1).val ∧ (i 1).val < win0_21.index t (1 : Fin 2) * 43 + 43; rw [e1]; omega

/-- So after the run the result array is the network on the whole array. -/
theorem final (c : Dev nD) : (dats m 0 c).arrAt 21 cfg0.N = result m c :=
  (dats m 0 c).arrAt_eq_of_cover 21 (result m c) (fun t _ => flushed_eq m c t) cover

/-! ## The run, read -/

/-- Every weakly fair execution of the kernel's program ends with the result array at the network on the whole array of
    the arguments, and the arguments as launched. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.Whole

end
-- ==== Proof.RefLayer.lean ====
/-
  One dense layer of the reference, read on one row of the whole array.

  The reference treats all 1048576 samples at once: a layer is the array's product with the weight matrix, plus the
  bias (made a one-row matrix, then repeated down all the rows), followed for most layers by `tanh`. Entry `(p, q)`
  of the product is the sum over `k` of the array's `(p, k)` entry times the weights' `(k, q)` entry. So row `p` of
  the layer's result is the layer of the mathematics (`Net.lin`, `Net.act`) applied to row `p` of the array. The
  three shapes that occur are 43 → 43, 43 → 21 and 21 → 43.
-/
import proofs.«168321_j72267119723145_1_alg».proof.ReferenceIdeal
import proofs.«168321_j72267119723145_1_alg».proof.Proof.Gen.ReferenceIdeal
import proofs.«168321_j72267119723145_1_alg».proof.Proof.Net
import Idealize.ShloMosaic.Lib.ValueIdx
import Idealize.ShloMosaic.Lib.Pipeline.Value
import Idealize.ShloMosaic.PureOps.Ideal.Laws

noncomputable section

open scoped BigOperators

namespace Cert.ReferenceIdeal.Layer

open Cert.ReferenceIdeal Cert.ReferenceIdeal.Facts₀ Cert.Net Idealize.ShloMosaic Idealize.ShloMosaic.ValueIdx

/-! ## The biases -/

/-- The bias of width 43, made a one-row matrix and then repeated down all the rows, read at entry `(p, q)`: the
    bias at `q`. -/
theorem bias_43 (b : FVec Ideal S43 .f32) (p : Fin 1048576) (q : Fin 43) :
    broadcastInDim S1048576x43 ![0, 1] bcast_S1x43_S1048576x43_0_1 (broadcastInDim S1x43 ![1] bcast_S43_S1x43_1 b) (ix2 p q)
      = b (ix1 q) := by
  refine (broadcastInDim_apply _ bcast_S1x43_S1048576x43_0_1 _ (ix2 p q) (ix2 (0 : Fin 1) q) (fun a => match a with
    | ⟨0, _⟩ => by show 0 = if (1 : Nat) = 1 then 0 else p.val; rw [if_pos rfl]
    | ⟨1, _⟩ => by show q.val = if (43 : Nat) = 1 then 0 else q.val; rw [if_neg (by decide)])).trans ?_
  exact broadcastInDim_apply _ bcast_S43_S1x43_1 b (ix2 (0 : Fin 1) q) (ix1 q) (fun a => match a with
    | ⟨0, _⟩ => by show q.val = if (43 : Nat) = 1 then 0 else q.val; rw [if_neg (by decide)])

/-- The bias of width 21, made a one-row matrix and then repeated down all the rows, read at entry `(p, q)`: the
    bias at `q`. -/
theorem bias_21 (b : FVec Ideal S21 .f32) (p : Fin 1048576) (q : Fin 21) :
    broadcastInDim S1048576x21 ![0, 1] bcast_S1x21_S1048576x21_0_1 (broadcastInDim S1x21 ![1] bcast_S21_S1x21_1 b) (ix2 p q)
      = b (ix1 q) := by
  refine (broadcastInDim_apply _ bcast_S1x21_S1048576x21_0_1 _ (ix2 p q) (ix2 (0 : Fin 1) q) (fun a => match a with
    | ⟨0, _⟩ => by show 0 = if (1 : Nat) = 1 then 0 else p.val; rw [if_pos rfl]
    | ⟨1, _⟩ => by show q.val = if (21 : Nat) = 1 then 0 else q.val; rw [if_neg (by decide)])).trans ?_
  exact broadcastInDim_apply _ bcast_S21_S1x21_1 b (ix2 (0 : Fin 1) q) (ix1 q) (fun a => match a with
    | ⟨0, _⟩ => by show q.val = if (21 : Nat) = 1 then 0 else q.val; rw [if_neg (by decide)])

/-! ## 43 → 43 -/

theorem mm_43_43_l0 (i : S1048576x43.Idx) (c : dot_S1048576x43_S43x43_S1048576x43_1_0_0_1_n_n.contr.Idx) : (dot_S1048576x43_S43x43_S1048576x43_1_0_0_1_n_n.lhsIdx i c 0).val = (i 0).val := by
  unfold DotDims.lhsIdx
  rw [dif_neg (show ¬(0 : Fin S1048576x43.rank) ∈ dot_S1048576x43_S43x43_S1048576x43_1_0_0_1_n_n.lhsBatch by decide), dif_pos (show (0 : Fin S1048576x43.rank) ∈ dot_S1048576x43_S43x43_S1048576x43_1_0_0_1_n_n.lhsNonContracting by decide)]
  rfl
theorem mm_43_43_l1 (i : S1048576x43.Idx) (c : dot_S1048576x43_S43x43_S1048576x43_1_0_0_1_n_n.contr.Idx) : (dot_S1048576x43_S43x43_S1048576x43_1_0_0_1_n_n.lhsIdx i c 1).val = (c ⟨0, by decide⟩).val :=
  dot_S1048576x43_S43x43_S1048576x43_1_0_0_1_n_n.lhsIdx_val_of_single rfl i c
theorem mm_43_43_r0 (i : S1048576x43.Idx) (c : dot_S1048576x43_S43x43_S1048576x43_1_0_0_1_n_n.contr.Idx) : (dot_S1048576x43_S43x43_S1048576x43_1_0_0_1_n_n.rhsIdx i c 0).val = (c ⟨0, by decide⟩).val :=
  dot_S1048576x43_S43x43_S1048576x43_1_0_0_1_n_n.rhsIdx_val_of_single rfl i c
theorem mm_43_43_r1 (i : S1048576x43.Idx) (c : dot_S1048576x43_S43x43_S1048576x43_1_0_0_1_n_n.contr.Idx) : (dot_S1048576x43_S43x43_S1048576x43_1_0_0_1_n_n.rhsIdx i c 1).val = (i 1).val := by
  unfold DotDims.rhsIdx
  rw [dif_neg (show ¬(1 : Fin S43x43.rank) ∈ dot_S1048576x43_S43x43_S1048576x43_1_0_0_1_n_n.rhsBatch by decide), dif_pos (show (1 : Fin S43x43.rank) ∈ dot_S1048576x43_S43x43_S1048576x43_1_0_0_1_n_n.rhsNonContracting by decide)]
  rfl

/-- The whole array's matrix product with a weight matrix, at entry `(p, q)`: row `p` of the array against
    column `q` of the weights. -/
theorem mm_43_43 (h : FVec Ideal S1048576x43 .f32) (W : FVec Ideal S43x43 .f32) (p : Fin 1048576) (q : Fin 43) :
    Host.dotGeneral dot_S1048576x43_S43x43_S1048576x43_1_0_0_1_n_n none h W (ix2 p q) = ∑ k : Fin 43, h (ix2 p k) * W (ix2 k q) := by
  refine (Ideal.dotGeneral_apply dot_S1048576x43_S43x43_S1048576x43_1_0_0_1_n_n none _ h W (ix2 p q)).trans ?_
  rw [← Equiv.sum_comp (contrEquiv1 dot_S1048576x43_S43x43_S1048576x43_1_0_0_1_n_n 43 rfl rfl).symm]
  refine Finset.sum_congr rfl fun k _ => ?_
  have hk := contrEquiv1_symm_val dot_S1048576x43_S43x43_S1048576x43_1_0_0_1_n_n 43 rfl rfl k
  have el : dot_S1048576x43_S43x43_S1048576x43_1_0_0_1_n_n.lhsIdx (ix2 p q) ((contrEquiv1 dot_S1048576x43_S43x43_S1048576x43_1_0_0_1_n_n 43 rfl rfl).symm k) = ix2 p k := funext fun a => Fin.ext (by
    match a with
    | ⟨0, _⟩ => exact mm_43_43_l0 _ _
    | ⟨1, _⟩ => exact (mm_43_43_l1 _ _).trans hk)
  have er : dot_S1048576x43_S43x43_S1048576x43_1_0_0_1_n_n.rhsIdx (ix2 p q) ((contrEquiv1 dot_S1048576x43_S43x43_S1048576x43_1_0_0_1_n_n 43 rfl rfl).symm k) = ix2 k q := funext fun a => Fin.ext (by
    match a with
    | ⟨0, _⟩ => exact (mm_43_43_r0 _ _).trans hk
    | ⟨1, _⟩ => exact mm_43_43_r1 _ _)
  rw [el, er]

/-- One dense layer as the reference computes it on the whole array — the product with the weights, the bias repeated
    down the rows and added — is, on row `p`, the layer of the mathematics on that row. -/
theorem lin_43_43 (h : FVec Ideal S1048576x43 .f32) (W : FVec Ideal S43x43 .f32) (b : FVec Ideal S43 .f32) (p : Fin 1048576) :
    row (addf (Host.dotGeneral dot_S1048576x43_S43x43_S1048576x43_1_0_0_1_n_n none h W)
        (broadcastInDim S1048576x43 ![0, 1] bcast_S1x43_S1048576x43_0_1 (broadcastInDim S1x43 ![1] bcast_S43_S1x43_1 b))) p
      = lin (row h p) (mat W) (vec b) := by
  funext q
  show addf _ _ (ix2 p q) = _
  rw [addf_apply, mm_43_43, bias_43]
  rfl

/-- The same layer followed by the activation. -/
theorem tlin_43_43 (h : FVec Ideal S1048576x43 .f32) (W : FVec Ideal S43x43 .f32) (b : FVec Ideal S43 .f32) (p : Fin 1048576) :
    row (Host.tanh (addf (Host.dotGeneral dot_S1048576x43_S43x43_S1048576x43_1_0_0_1_n_n none h W)
        (broadcastInDim S1048576x43 ![0, 1] bcast_S1x43_S1048576x43_0_1 (broadcastInDim S1x43 ![1] bcast_S43_S1x43_1 b)))) p
      = act (lin (row h p) (mat W) (vec b)) :=
  (show row (Host.tanh (addf (Host.dotGeneral dot_S1048576x43_S43x43_S1048576x43_1_0_0_1_n_n none h W)
        (broadcastInDim S1048576x43 ![0, 1] bcast_S1x43_S1048576x43_0_1 (broadcastInDim S1x43 ![1] bcast_S43_S1x43_1 b)))) p = act (row (addf (Host.dotGeneral dot_S1048576x43_S43x43_S1048576x43_1_0_0_1_n_n none h W)
        (broadcastInDim S1048576x43 ![0, 1] bcast_S1x43_S1048576x43_0_1 (broadcastInDim S1x43 ![1] bcast_S43_S1x43_1 b))) p) from rfl).trans (congrArg act (lin_43_43 h W b p))

/-! ## 43 → 21 -/

theorem mm_43_21_l0 (i : S1048576x21.Idx) (c : dot_S1048576x43_S43x21_S1048576x21_1_0_0_1_n_n.contr.Idx) : (dot_S1048576x43_S43x21_S1048576x21_1_0_0_1_n_n.lhsIdx i c 0).val = (i 0).val := by
  unfold DotDims.lhsIdx
  rw [dif_neg (show ¬(0 : Fin S1048576x43.rank) ∈ dot_S1048576x43_S43x21_S1048576x21_1_0_0_1_n_n.lhsBatch by decide), dif_pos (show (0 : Fin S1048576x43.rank) ∈ dot_S1048576x43_S43x21_S1048576x21_1_0_0_1_n_n.lhsNonContracting by decide)]
  rfl
theorem mm_43_21_l1 (i : S1048576x21.Idx) (c : dot_S1048576x43_S43x21_S1048576x21_1_0_0_1_n_n.contr.Idx) : (dot_S1048576x43_S43x21_S1048576x21_1_0_0_1_n_n.lhsIdx i c 1).val = (c ⟨0, by decide⟩).val :=
  dot_S1048576x43_S43x21_S1048576x21_1_0_0_1_n_n.lhsIdx_val_of_single rfl i c
theorem mm_43_21_r0 (i : S1048576x21.Idx) (c : dot_S1048576x43_S43x21_S1048576x21_1_0_0_1_n_n.contr.Idx) : (dot_S1048576x43_S43x21_S1048576x21_1_0_0_1_n_n.rhsIdx i c 0).val = (c ⟨0, by decide⟩).val :=
  dot_S1048576x43_S43x21_S1048576x21_1_0_0_1_n_n.rhsIdx_val_of_single rfl i c
theorem mm_43_21_r1 (i : S1048576x21.Idx) (c : dot_S1048576x43_S43x21_S1048576x21_1_0_0_1_n_n.contr.Idx) : (dot_S1048576x43_S43x21_S1048576x21_1_0_0_1_n_n.rhsIdx i c 1).val = (i 1).val := by
  unfold DotDims.rhsIdx
  rw [dif_neg (show ¬(1 : Fin S43x21.rank) ∈ dot_S1048576x43_S43x21_S1048576x21_1_0_0_1_n_n.rhsBatch by decide), dif_pos (show (1 : Fin S43x21.rank) ∈ dot_S1048576x43_S43x21_S1048576x21_1_0_0_1_n_n.rhsNonContracting by decide)]
  rfl

/-- The whole array's matrix product with a weight matrix, at entry `(p, q)`: row `p` of the array against
    column `q` of the weights. -/
theorem mm_43_21 (h : FVec Ideal S1048576x43 .f32) (W : FVec Ideal S43x21 .f32) (p : Fin 1048576) (q : Fin 21) :
    Host.dotGeneral dot_S1048576x43_S43x21_S1048576x21_1_0_0_1_n_n none h W (ix2 p q) = ∑ k : Fin 43, h (ix2 p k) * W (ix2 k q) := by
  refine (Ideal.dotGeneral_apply dot_S1048576x43_S43x21_S1048576x21_1_0_0_1_n_n none _ h W (ix2 p q)).trans ?_
  rw [← Equiv.sum_comp (contrEquiv1 dot_S1048576x43_S43x21_S1048576x21_1_0_0_1_n_n 43 rfl rfl).symm]
  refine Finset.sum_congr rfl fun k _ => ?_
  have hk := contrEquiv1_symm_val dot_S1048576x43_S43x21_S1048576x21_1_0_0_1_n_n 43 rfl rfl k
  have el : dot_S1048576x43_S43x21_S1048576x21_1_0_0_1_n_n.lhsIdx (ix2 p q) ((contrEquiv1 dot_S1048576x43_S43x21_S1048576x21_1_0_0_1_n_n 43 rfl rfl).symm k) = ix2 p k := funext fun a => Fin.ext (by
    match a with
    | ⟨0, _⟩ => exact mm_43_21_l0 _ _
    | ⟨1, _⟩ => exact (mm_43_21_l1 _ _).trans hk)
  have er : dot_S1048576x43_S43x21_S1048576x21_1_0_0_1_n_n.rhsIdx (ix2 p q) ((contrEquiv1 dot_S1048576x43_S43x21_S1048576x21_1_0_0_1_n_n 43 rfl rfl).symm k) = ix2 k q := funext fun a => Fin.ext (by
    match a with
    | ⟨0, _⟩ => exact (mm_43_21_r0 _ _).trans hk
    | ⟨1, _⟩ => exact mm_43_21_r1 _ _)
  rw [el, er]

/-- One dense layer as the reference computes it on the whole array — the product with the weights, the bias repeated
    down the rows and added — is, on row `p`, the layer of the mathematics on that row. -/
theorem lin_43_21 (h : FVec Ideal S1048576x43 .f32) (W : FVec Ideal S43x21 .f32) (b : FVec Ideal S21 .f32) (p : Fin 1048576) :
    row (addf (Host.dotGeneral dot_S1048576x43_S43x21_S1048576x21_1_0_0_1_n_n none h W)
        (broadcastInDim S1048576x21 ![0, 1] bcast_S1x21_S1048576x21_0_1 (broadcastInDim S1x21 ![1] bcast_S21_S1x21_1 b))) p
      = lin (row h p) (mat W) (vec b) := by
  funext q
  show addf _ _ (ix2 p q) = _
  rw [addf_apply, mm_43_21, bias_21]
  rfl

/-! ## 21 → 43 -/

theorem mm_21_43_l0 (i : S1048576x43.Idx) (c : dot_S1048576x21_S21x43_S1048576x43_1_0_0_1_n_n.contr.Idx) : (dot_S1048576x21_S21x43_S1048576x43_1_0_0_1_n_n.lhsIdx i c 0).val = (i 0).val := by
  unfold DotDims.lhsIdx
  rw [dif_neg (show ¬(0 : Fin S1048576x21.rank) ∈ dot_S1048576x21_S21x43_S1048576x43_1_0_0_1_n_n.lhsBatch by decide), dif_pos (show (0 : Fin S1048576x21.rank) ∈ dot_S1048576x21_S21x43_S1048576x43_1_0_0_1_n_n.lhsNonContracting by decide)]
  rfl
theorem mm_21_43_l1 (i : S1048576x43.Idx) (c : dot_S1048576x21_S21x43_S1048576x43_1_0_0_1_n_n.contr.Idx) : (dot_S1048576x21_S21x43_S1048576x43_1_0_0_1_n_n.lhsIdx i c 1).val = (c ⟨0, by decide⟩).val :=
  dot_S1048576x21_S21x43_S1048576x43_1_0_0_1_n_n.lhsIdx_val_of_single rfl i c
theorem mm_21_43_r0 (i : S1048576x43.Idx) (c : dot_S1048576x21_S21x43_S1048576x43_1_0_0_1_n_n.contr.Idx) : (dot_S1048576x21_S21x43_S1048576x43_1_0_0_1_n_n.rhsIdx i c 0).val = (c ⟨0, by decide⟩).val :=
  dot_S1048576x21_S21x43_S1048576x43_1_0_0_1_n_n.rhsIdx_val_of_single rfl i c
theorem mm_21_43_r1 (i : S1048576x43.Idx) (c : dot_S1048576x21_S21x43_S1048576x43_1_0_0_1_n_n.contr.Idx) : (dot_S1048576x21_S21x43_S1048576x43_1_0_0_1_n_n.rhsIdx i c 1).val = (i 1).val := by
  unfold DotDims.rhsIdx
  rw [dif_neg (show ¬(1 : Fin S21x43.rank) ∈ dot_S1048576x21_S21x43_S1048576x43_1_0_0_1_n_n.rhsBatch by decide), dif_pos (show (1 : Fin S21x43.rank) ∈ dot_S1048576x21_S21x43_S1048576x43_1_0_0_1_n_n.rhsNonContracting by decide)]
  rfl

/-- The whole array's matrix product with a weight matrix, at entry `(p, q)`: row `p` of the array against
    column `q` of the weights. -/
theorem mm_21_43 (h : FVec Ideal S1048576x21 .f32) (W : FVec Ideal S21x43 .f32) (p : Fin 1048576) (q : Fin 43) :
    Host.dotGeneral dot_S1048576x21_S21x43_S1048576x43_1_0_0_1_n_n none h W (ix2 p q) = ∑ k : Fin 21, h (ix2 p k) * W (ix2 k q) := by
  refine (Ideal.dotGeneral_apply dot_S1048576x21_S21x43_S1048576x43_1_0_0_1_n_n none _ h W (ix2 p q)).trans ?_
  rw [← Equiv.sum_comp (contrEquiv1 dot_S1048576x21_S21x43_S1048576x43_1_0_0_1_n_n 21 rfl rfl).symm]
  refine Finset.sum_congr rfl fun k _ => ?_
  have hk := contrEquiv1_symm_val dot_S1048576x21_S21x43_S1048576x43_1_0_0_1_n_n 21 rfl rfl k
  have el : dot_S1048576x21_S21x43_S1048576x43_1_0_0_1_n_n.lhsIdx (ix2 p q) ((contrEquiv1 dot_S1048576x21_S21x43_S1048576x43_1_0_0_1_n_n 21 rfl rfl).symm k) = ix2 p k := funext fun a => Fin.ext (by
    match a with
    | ⟨0, _⟩ => exact mm_21_43_l0 _ _
    | ⟨1, _⟩ => exact (mm_21_43_l1 _ _).trans hk)
  have er : dot_S1048576x21_S21x43_S1048576x43_1_0_0_1_n_n.rhsIdx (ix2 p q) ((contrEquiv1 dot_S1048576x21_S21x43_S1048576x43_1_0_0_1_n_n 21 rfl rfl).symm k) = ix2 k q := funext fun a => Fin.ext (by
    match a with
    | ⟨0, _⟩ => exact (mm_21_43_r0 _ _).trans hk
    | ⟨1, _⟩ => exact mm_21_43_r1 _ _)
  rw [el, er]

/-- One dense layer as the reference computes it on the whole array — the product with the weights, the bias repeated
    down the rows and added — is, on row `p`, the layer of the mathematics on that row. -/
theorem lin_21_43 (h : FVec Ideal S1048576x21 .f32) (W : FVec Ideal S21x43 .f32) (b : FVec Ideal S43 .f32) (p : Fin 1048576) :
    row (addf (Host.dotGeneral dot_S1048576x21_S21x43_S1048576x43_1_0_0_1_n_n none h W)
        (broadcastInDim S1048576x43 ![0, 1] bcast_S1x43_S1048576x43_0_1 (broadcastInDim S1x43 ![1] bcast_S43_S1x43_1 b))) p
      = lin (row h p) (mat W) (vec b) := by
  funext q
  show addf _ _ (ix2 p q) = _
  rw [addf_apply, mm_21_43, bias_43]
  rfl

/-- The same layer followed by the activation. -/
theorem tlin_21_43 (h : FVec Ideal S1048576x21 .f32) (W : FVec Ideal S21x43 .f32) (b : FVec Ideal S43 .f32) (p : Fin 1048576) :
    row (Host.tanh (addf (Host.dotGeneral dot_S1048576x21_S21x43_S1048576x43_1_0_0_1_n_n none h W)
        (broadcastInDim S1048576x43 ![0, 1] bcast_S1x43_S1048576x43_0_1 (broadcastInDim S1x43 ![1] bcast_S43_S1x43_1 b)))) p
      = act (lin (row h p) (mat W) (vec b)) :=
  (show row (Host.tanh (addf (Host.dotGeneral dot_S1048576x21_S21x43_S1048576x43_1_0_0_1_n_n none h W)
        (broadcastInDim S1048576x43 ![0, 1] bcast_S1x43_S1048576x43_0_1 (broadcastInDim S1x43 ![1] bcast_S43_S1x43_1 b)))) p = act (row (addf (Host.dotGeneral dot_S1048576x21_S21x43_S1048576x43_1_0_0_1_n_n none h W)
        (broadcastInDim S1048576x43 ![0, 1] bcast_S1x43_S1048576x43_0_1 (broadcastInDim S1x43 ![1] bcast_S43_S1x43_1 b))) p) from rfl).trans (congrArg act (lin_21_43 h W b p))

end Cert.ReferenceIdeal.Layer

end
-- ==== Proof.RefNet.lean ====
/-
  The reference computes the network.

  Its result is ten layers nested one inside the other, each on the whole array. Row `r` of the result is the
  network of the mathematics applied to row `r` of the input: layer by layer, from the outermost inwards, by the
  one-layer lemmas. Hence the result is `Net.whole` of the arguments.
-/
import proofs.«168321_j72267119723145_1_alg».proof.Proof.Gen.ReferenceIdeal.Read
import proofs.«168321_j72267119723145_1_alg».proof.Proof.RefLayer
import proofs.«168321_j72267119723145_1_alg».proof.Proof.Whole

noncomputable section

namespace Cert.ReferenceIdeal.Whole

open Cert.ReferenceIdeal Cert.ReferenceIdeal.Facts₀ Cert.ReferenceIdeal.Layer Cert.Net Idealize.ShloMosaic Idealize.ShloMosaic.ValueIdx

/-- Row `r` of the reference's result. -/
theorem result_row (x0 : FVec Ideal S1048576x43 .f32)
    (x1 : FVec Ideal S43x43 .f32)
    (x2 : FVec Ideal S43 .f32)
    (x3 : FVec Ideal S43x43 .f32)
    (x4 : FVec Ideal S43 .f32)
    (x5 : FVec Ideal S43x43 .f32)
    (x6 : FVec Ideal S43 .f32)
    (x7 : FVec Ideal S43x43 .f32)
    (x8 : FVec Ideal S43 .f32)
    (x9 : FVec Ideal S43x21 .f32)
    (x10 : FVec Ideal S21 .f32)
    (x11 : FVec Ideal S21x43 .f32)
    (x12 : FVec Ideal S43 .f32)
    (x13 : FVec Ideal S43x43 .f32)
    (x14 : FVec Ideal S43 .f32)
    (x15 : FVec Ideal S43x43 .f32)
    (x16 : FVec Ideal S43 .f32)
    (x17 : FVec Ideal S43x43 .f32)
    (x18 : FVec Ideal S43 .f32)
    (x19 : FVec Ideal S43x43 .f32)
    (x20 : FVec Ideal S43 .f32)
    (r : Fin 1048576) :
    row (Read.val_main_v47 (F := Ideal) x0 x1 x2 x3 x4 x5 x6 x7 x8 x9 x10 x11 x12 x13 x14 x15 x16 x17 x18 x19 x20) r
      = net (row x0 r) (mat x1) (vec x2) (mat x3) (vec x4) (mat x5) (vec x6) (mat x7) (vec x8) (mat x9) (vec x10) (mat x11) (vec x12) (mat x13) (vec x14) (mat x15) (vec x16) (mat x17) (vec x18) (mat x19) (vec x20) := by
  rw [← Read.val_main_v47_eq]
  rw [lin_43_43, tlin_43_43, tlin_43_43, tlin_43_43, tlin_21_43, lin_43_21, tlin_43_43, tlin_43_43, tlin_43_43, tlin_43_43]
  rfl

/-- The reference's result is the network on the whole array. -/
theorem result_eq (x0 : FVec Ideal S1048576x43 .f32)
    (x1 : FVec Ideal S43x43 .f32)
    (x2 : FVec Ideal S43 .f32)
    (x3 : FVec Ideal S43x43 .f32)
    (x4 : FVec Ideal S43 .f32)
    (x5 : FVec Ideal S43x43 .f32)
    (x6 : FVec Ideal S43 .f32)
    (x7 : FVec Ideal S43x43 .f32)
    (x8 : FVec Ideal S43 .f32)
    (x9 : FVec Ideal S43x21 .f32)
    (x10 : FVec Ideal S21 .f32)
    (x11 : FVec Ideal S21x43 .f32)
    (x12 : FVec Ideal S43 .f32)
    (x13 : FVec Ideal S43x43 .f32)
    (x14 : FVec Ideal S43 .f32)
    (x15 : FVec Ideal S43x43 .f32)
    (x16 : FVec Ideal S43 .f32)
    (x17 : FVec Ideal S43x43 .f32)
    (x18 : FVec Ideal S43 .f32)
    (x19 : FVec Ideal S43x43 .f32)
    (x20 : FVec Ideal S43 .f32) :
    Read.val_main_v47 (F := Ideal) x0 x1 x2 x3 x4 x5 x6 x7 x8 x9 x10 x11 x12 x13 x14 x15 x16 x17 x18 x19 x20 = whole x0 x1 x2 x3 x4 x5 x6 x7 x8 x9 x10 x11 x12 x13 x14 x15 x16 x17 x18 x19 x20 := by
  funext i
  obtain ⟨r, j, rfl⟩ : ∃ (r : Fin 1048576) (j : Fin 43), i = ix2 r j := ⟨i 0, i 1, eq_ix2 i⟩
  exact congrFun (result_row x0 x1 x2 x3 x4 x5 x6 x7 x8 x9 x10 x11 x12 x13 x14 x15 x16 x17 x18 x19 x20 r) j

end Cert.ReferenceIdeal.Whole

end
-- ==== Proof.lean ====
/-
  A ten-layer autoencoder on 1048576 samples of 43 features: the kernel against its plain reference, on the extended
  reals.

  Both programs compute, for every sample (a row `x` of the input), ten dense layers `h ↦ h · W + b` — widths
  43 → 43 → 43 → 43 → 43 → 21 → 43 → 43 → 43 → 43 → 43 — with `tanh` after each of them except the fifth and the
  tenth. The reference does so on the whole array at once. The kernel cuts the samples into 256 blocks of 4096 rows,
  one per grid point, keeps the weights and the (reshaped) biases whole at every point, narrows the operands of each
  product to bf16 and accumulates from zero. On the extended reals a narrowing is the identity, a product into a zero
  accumulator is the plain sum of products, and the kernel's `tanh` and the host's are one function; so both sides
  are the same sums in the same order, and no law of arithmetic — in particular no finiteness of the inputs — is
  needed to join them.

  * `Proof/Net.lean`, `Proof/Whole.lean`: the network on one sample, and on the whole array (`Net.whole`).
  * `Proof/KernelLayer.lean`, `Proof/KernelBlock.lean`: one layer, then all ten, of the kernel's body on one row of a
    block.
  * `Proof/KernelArray.lean`: each point's blocks read off the arguments, what each point writes back, the blocks tile
    the result: the kernel's result array is `Net.whole` of the arguments.
  * `Proof/RefLayer.lean`, `Proof/RefNet.lean`: one layer, then all ten, of the reference on one row of the array: the
    reference's result is `Net.whole` of the arguments.

  The three frames are the generated ones (the reference's is its generated run with the result dropped); the kernel's
  idealization rewrote nothing, so there is nothing to preserve.
-/
import proofs.«168321_j72267119723145_1_alg».proof.Defs
import proofs.«168321_j72267119723145_1_alg».proof.Proof.Gen.Kernel
import proofs.«168321_j72267119723145_1_alg».proof.Proof.Gen.Kernel.Skeleton
import proofs.«168321_j72267119723145_1_alg».proof.Proof.Gen.Kernel.Launch
import proofs.«168321_j72267119723145_1_alg».proof.Proof.Gen.Kernel.Points
import proofs.«168321_j72267119723145_1_alg».proof.Proof.Gen.Kernel.Frame
import proofs.«168321_j72267119723145_1_alg».proof.Proof.Gen.KernelIdeal
import proofs.«168321_j72267119723145_1_alg».proof.Proof.Gen.KernelIdeal.Skeleton
import proofs.«168321_j72267119723145_1_alg».proof.Proof.Gen.KernelIdeal.Launch
import proofs.«168321_j72267119723145_1_alg».proof.Proof.Gen.KernelIdeal.Points
import proofs.«168321_j72267119723145_1_alg».proof.Proof.Gen.KernelIdeal.Frame
import proofs.«168321_j72267119723145_1_alg».proof.Proof.Gen.ReferenceIdeal
import proofs.«168321_j72267119723145_1_alg».proof.Proof.Gen.Pre_finite_inputs
import proofs.«168321_j72267119723145_1_alg».proof.Proof.Gen.KernelIdeal.Value
import proofs.«168321_j72267119723145_1_alg».proof.Proof.Gen.ReferenceIdeal.Run
import proofs.«168321_j72267119723145_1_alg».proof.Proof.Gen.ReferenceIdeal.Read
import proofs.«168321_j72267119723145_1_alg».proof.Proof.KernelArray
import proofs.«168321_j72267119723145_1_alg».proof.Proof.RefNet
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments, the kernel's result array and the reference's are both the network on the
    whole array of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v47_eq, Cert.ReferenceIdeal.Whole.result_eq, h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
